-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x1024x1024, .bf16⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S1024, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  broadcasts_S1x1024_S1024x1024 : S1x1024.Broadcasts S1024x1024
  dot_S512x1024_S1024x1024_S512x1024_1_1_0_0_n_n_wf : DotDims.WF S512x1024 S1024x1024 S512x1024 [1] [1] [0] [0] [] []
  dot_S512x1024_S512x1024_S1024x1024_0_0_1_1_n_n_wf : DotDims.WF S512x1024 S512x1024 S1024x1024 [0] [0] [1] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .bf16 = 32 ∨ (Rect.block (s := S4x1024x1024) S1x1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x1024x1024 : S_.BroadcastsInDim S4x1024x1024 (![] : Fin 0 → Fin S4x1024x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.Bits.KVShared.lean ====
/-
  Region 0 (the K^T V accumulation, grid 4 × 8): what its three control cases share.  A grid point is t = 8·b + s:
  batch b, S-tile s of 512 rows.  The body zero-fills the accumulator when s = 0, adds the tile's partial product
  K_tile^T V_tile to it at every point, and when s = 7 scales it and stores it into the output block, which is
  written back only there.  Here: the input blocks as read off the arrays the region is entered with, the two
  branch conditions in closed form, where the output window is idle, and the memrefs the body is run on.
-/
import proofs.«141280_j21363167330926_2_alg».proof.Proof.Gen.Kernel.Launch
import proofs.«141280_j21363167330926_2_alg».proof.Proof.Gen.Kernel.Skeleton
import proofs.«141280_j21363167330926_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data over the entry arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data over the entry arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data over the entry arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data over the entry arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data over the entry arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first S-tile" (s = 0), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last S-tile" (s = 7). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_in : ∀ (w : Fin cfg0.W), w.val < 5 → ∀ t : Fin cfg0.N, cfg0.idle w (grid0.coords t) = false := by decide +kernel
/-- Off the last S-tile the output block is neither stored into nor written back. -/
theorem idle0_out : ∀ t : Fin cfg0.N, ¬isLast (grid0.coords t) → cfg0.idle 5 (grid0.coords t) = true := by decide +kernel
theorem noflush0_out : ∀ t : Fin cfg0.N, ¬isLast (grid0.coords t) → (cfg0.win 5).flush t = false := by decide +kernel
theorem live0_out : ∀ t : Fin cfg0.N, isLast (grid0.coords t) → cfg0.idle 5 (grid0.coords t) = false := by decide +kernel

/-! ## The memrefs the body runs on -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev accM : Memref sig .tc .vmem S1024x1024 .f32 := Memref.whole cc0_scratch0
/-- The views through which the output block's and the accumulator's contents are stated. -/
abbrev outV : View sig .tc .vmem S1x1024x1024 .bf16 := (Memref.whole cc0_stg5_0 : Memref sig .tc .vmem S1x1024x1024 .bf16).view
abbrev accV : View sig .tc .vmem S1024x1024 .f32 := accM.view

/-- The scoped buffers of the core that region 0 neither stages nor uses (region 1's staging buffers), at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's untouched-scratch invariant with the accumulator split out as a memref owned at some contents. -/
theorem PhiA0_eq (c : Dev nD) :
    (Pipeline.ΦA spec0 c : sProp 𝕄)
      = iprop(((∃ d, owns (c : Thread nD τ) accM fullShare d) ∗ others0 c) ∗ (∃ r, prngReg c r)) := by
  unfold Pipeline.ΦA others0; rw [scopedRest0_eq]; simp only [accM, owns_whole]; try rfl

end Cert.Kernel.Hand

end
-- ==== Proof.Bits.KVRunFirst.lean ====
/- Region 0's body at the first S-tile of a batch (s = 0): zero-fill the accumulator, then add this tile's K^T V. -/
import proofs.«141280_j21363167330926_2_alg».proof.Proof.Bits.KVShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunFirst (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i)
    (x0 : Vec F S1x512x1024 .f32) (x1 : Vec F S1024x1024 .bf16) (x2 : Vec F S1024 .f32) (x3 : Vec F S1024x1024 .bf16) (x4 : Vec F S1024 .f32) :
    Σ' (L5 : List (View.Piece (Elt F) S1x1024x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.Bits.KVRunMid.lean ====
/- Region 0's body at a middle S-tile (0 < s < 7): add this tile's K^T V to the accumulator the tile before left. -/
import proofs.«141280_j21363167330926_2_alg».proof.Proof.Bits.KVShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunMid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i)
    (x0 : Vec F S1x512x1024 .f32) (x1 : Vec F S1024x1024 .bf16) (x2 : Vec F S1024 .f32) (x3 : Vec F S1024x1024 .bf16) (x4 : Vec F S1024 .f32) (xs : Vec F S1024x1024 .f32) :
    Σ' (L5 : List (View.Piece (Elt F) S1x1024x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.Bits.KVRunLast.lean ====
/- Region 0's body at the last S-tile (s = 7): add this tile's K^T V, then scale the accumulator into the output block. -/
import proofs.«141280_j21363167330926_2_alg».proof.Proof.Bits.KVShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i)
    (x0 : Vec F S1x512x1024 .f32) (x1 : Vec F S1024x1024 .bf16) (x2 : Vec F S1024 .f32) (x3 : Vec F S1024x1024 .bf16) (x4 : Vec F S1024 .f32) (xs : Vec F S1024x1024 .f32) :
    Σ' (L5 : List (View.Piece (Elt F) S1x1024x1024 .bf16)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.Bits.KVFrame.lean ====
/-
  Region 0's proof data.  After the body at point t = 8·b + s the accumulator holds: at s = 0 what the first-tile run
  leaves (zero-fill, then this tile's partial product added); at 0 < s ≤ 7 what the run leaves over the accumulator of
  point t − 1.  The output block holds what the last-tile run stores (the scaled accumulator) at s = 7 and is idle
  elsewhere.  The region's invariant carries the accumulator from point to point at exactly these contents.
-/
import proofs.«141280_j21363167330926_2_alg».proof.Proof.Bits.KVRunFirst
import proofs.«141280_j21363167330926_2_alg».proof.Proof.Bits.KVRunMid
import proofs.«141280_j21363167330926_2_alg».proof.Proof.Bits.KVRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i) (x0 : Vec F S1x512x1024 .f32) (x1 : Vec F S1024x1024 .bf16) (x2 : Vec F S1024 .f32) (x3 : Vec F S1024x1024 .bf16) (x4 : Vec F S1024 .f32) (y : S1024x1024.Idx) :
    ∃ pc ∈ (kvRunFirst c i arg2 harg2 arg3 harg3 arg4 harg4 arg5 harg5 arg6 harg6 arg7 harg7 arg8 harg8 hc0 hc1 x0 x1 x2 x3 x4).2.1, y ∈ pc.1.set :=
  View.cover_of_tiledL (kvRunFirst c i arg2 harg2 arg3 harg3 arg4 harg4 arg5 harg5 arg6 harg6 arg7 harg7 arg8 harg8 hc0 hc1 x0 x1 x2 x3 x4).2.1 S1024x1024.size (by sl_kernel_rfl) y
/-- The accumulator after a first tile: its pieces read back. -/
def accFirst (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i) (x0 : Vec F S1x512x1024 .f32) (x1 : Vec F S1024x1024 .bf16) (x2 : Vec F S1024 .f32) (x3 : Vec F S1024x1024 .bf16) (x4 : Vec F S1024 .f32) : Vec F S1024x1024 .f32 :=
  accV.read (Elt F) (accV.writes (Elt F) accV.junk (kvRunFirst c i arg2 harg2 arg3 harg3 arg4 harg4 arg5 harg5 arg6 harg6 arg7 harg7 arg8 harg8 hc0 hc1 x0 x1 x2 x3 x4).2.1)

theorem accCover_mid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1024x1024.Idx) :
    ∃ pc ∈ (kvRunMid c i arg2 harg2 arg3 harg3 arg4 harg4 arg5 harg5 arg6 harg6 arg7 harg7 arg8 harg8 hc0 hc1 x0 x1 x2 x3 x4 xs).2.1, y ∈ pc.1.set :=
  View.cover_of_tiledL (kvRunMid c i arg2 harg2 arg3 harg3 arg4 harg4 arg5 harg5 arg6 harg6 arg7 harg7 arg8 harg8 hc0 hc1 x0 x1 x2 x3 x4 xs).2.1 S1024x1024.size (by sl_kernel_rfl) y
/-- The accumulator after a middle tile, over what the tile before left. -/
def accMid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1024x1024 .f32 :=
  accV.read (Elt F) (accV.writes (Elt F) accV.junk (kvRunMid c i arg2 harg2 arg3 harg3 arg4 harg4 arg5 harg5 arg6 harg6 arg7 harg7 arg8 harg8 hc0 hc1 x0 x1 x2 x3 x4 xs).2.1)

theorem accCover_last (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1024x1024.Idx) :
    ∃ pc ∈ (kvRunLast c i arg2 harg2 arg3 harg3 arg4 harg4 arg5 harg5 arg6 harg6 arg7 harg7 arg8 harg8 hc0 hc1 x0 x1 x2 x3 x4 xs).2.1, y ∈ pc.1.set :=
  View.cover_of_tiledL (kvRunLast c i arg2 harg2 arg3 harg3 arg4 harg4 arg5 harg5 arg6 harg6 arg7 harg7 arg8 harg8 hc0 hc1 x0 x1 x2 x3 x4 xs).2.1 S1024x1024.size (by sl_kernel_rfl) y
/-- The accumulator after a last tile. -/
def accLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1024x1024 .f32 :=
  accV.read (Elt F) (accV.writes (Elt F) accV.junk (kvRunLast c i arg2 harg2 arg3 harg3 arg4 harg4 arg5 harg5 arg6 harg6 arg7 harg7 arg8 harg8 hc0 hc1 x0 x1 x2 x3 x4 xs).2.1)

theorem outCover_last (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1x1024x1024.Idx) :
    ∃ pc ∈ (kvRunLast c i arg2 harg2 arg3 harg3 arg4 harg4 arg5 harg5 arg6 harg6 arg7 harg7 arg8 harg8 hc0 hc1 x0 x1 x2 x3 x4 xs).1, y ∈ pc.1.set :=
  View.cover_of_tiledL (kvRunLast c i arg2 harg2 arg3 harg3 arg4 harg4 arg5 harg5 arg6 harg6 arg7 harg7 arg8 harg8 hc0 hc1 x0 x1 x2 x3 x4 xs).1 S1x1024x1024.size (by sl_kernel_rfl) y
/-- The output block after a last tile. -/
def outLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1x1024x1024 .bf16 :=
  outV.read (Elt F) (outV.writes (Elt F) outV.junk (kvRunLast c i arg2 harg2 arg3 harg3 arg4 harg4 arg5 harg5 arg6 harg6 arg7 harg7 arg8 harg8 hc0 hc1 x0 x1 x2 x3 x4 xs).1)

/-- A placeholder for the output block where the window is idle (neither stored into nor written back there). -/
def outIdle : Vec F S1x1024x1024 .bf16 := outV.read (Elt F) (outV.junk (Val := Elt F))

/-! ## The cases at a grid point, on that point's memrefs and input blocks -/

def firstAt (c : Dev nD) (t : Fin cfg0.N) (h0 : t.val % 8 = 0) : Vec F S1024x1024 .f32 :=
  accFirst c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) ((isFirst_iff t).mpr h0) (fun h => absurd ((isLast_iff t).mp h) (by omega)) (iblk0 V c 0 t) (iblk0 V c 1 t) (iblk0 V c 2 t) (iblk0 V c 3 t) (iblk0 V c 4 t)
def midAt (c : Dev nD) (t : Fin cfg0.N) (h0 : ¬t.val % 8 = 0) (h1 : ¬t.val % 8 = 7) (xs : Vec F S1024x1024 .f32) : Vec F S1024x1024 .f32 :=
  accMid c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((isFirst_iff t).mp h)) (fun h => h1 ((isLast_iff t).mp h)) (iblk0 V c 0 t) (iblk0 V c 1 t) (iblk0 V c 2 t) (iblk0 V c 3 t) (iblk0 V c 4 t) xs
def lastAccAt (c : Dev nD) (t : Fin cfg0.N) (h1 : t.val % 8 = 7) (xs : Vec F S1024x1024 .f32) : Vec F S1024x1024 .f32 :=
  accLast c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => absurd ((isFirst_iff t).mp h) (by omega)) ((isLast_iff t).mpr h1) (iblk0 V c 0 t) (iblk0 V c 1 t) (iblk0 V c 2 t) (iblk0 V c 3 t) (iblk0 V c 4 t) xs
def lastOutAt (c : Dev nD) (t : Fin cfg0.N) (h1 : t.val % 8 = 7) (xs : Vec F S1024x1024 .f32) : Vec F S1x1024x1024 .bf16 :=
  outLast c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => absurd ((isFirst_iff t).mp h) (by omega)) ((isLast_iff t).mpr h1) (iblk0 V c 0 t) (iblk0 V c 1 t) (iblk0 V c 2 t) (iblk0 V c 3 t) (iblk0 V c 4 t) xs

/-! ## The accumulation, point by point -/

/-- The output block's staging buffer and the accumulator after the body at position `n`. -/
def stateAt (c : Dev nD) : (n : ℕ) → n < cfg0.N → Vec F S1x1024x1024 .bf16 × Vec F S1024x1024 .f32
  | 0, hn => (outIdle, firstAt V c ⟨0, hn⟩ (Nat.zero_mod _))
  | n + 1, hn =>
    if h0 : (n + 1) % 8 = 0 then (outIdle, firstAt V c ⟨n + 1, hn⟩ h0)
    else if h1 : (n + 1) % 8 = 7 then
      (lastOutAt V c ⟨n + 1, hn⟩ h1 (stateAt c n (Nat.lt_of_succ_lt hn)).2, lastAccAt V c ⟨n + 1, hn⟩ h1 (stateAt c n (Nat.lt_of_succ_lt hn)).2)
    else (outIdle, midAt V c ⟨n + 1, hn⟩ h0 h1 (stateAt c n (Nat.lt_of_succ_lt hn)).2)

theorem stateAt_first (c : Dev nD) (t : Fin cfg0.N) (h0 : t.val % 8 = 0) :
    stateAt V c t.val t.isLt = (outIdle, firstAt V c t h0) := by
  obtain ⟨n, hn⟩ := t
  cases n with
  | zero => rfl
  | succ n => exact (dif_pos h0)

theorem stateAt_mid (c : Dev nD) (t : Fin cfg0.N) (h0 : ¬t.val % 8 = 0) (h1 : ¬t.val % 8 = 7) :
    stateAt V c t.val t.isLt = (outIdle, midAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem stateAt_last (c : Dev nD) (t : Fin cfg0.N) (h1 : t.val % 8 = 7) :
    stateAt V c t.val t.isLt = (lastOutAt V c t h1 (stateAt V c (t.val - 1) (Nat.lt_of_le_of_lt (Nat.sub_le _ _) t.isLt)).2, lastAccAt V c t h1 (stateAt V c (t.val - 1) (Nat.lt_of_le_of_lt (Nat.sub_le _ _) t.isLt)).2) := by
  obtain ⟨n, hn⟩ := t
  cases n with
  | zero => exact absurd (show (0 : ℕ) % 8 = 7 from h1) (by decide)
  | succ n =>
    have h1' : (n + 1) % 8 = 7 := h1
    exact (dif_neg (by omega)).trans (dif_pos h1)

/-- The region's invariant before position `n`: before the first point every scratch at anything; afterwards the
    accumulator at what the point before left, the scoped buffers the region does not use at anything, the generator
    register at some state. -/
def accInv (c : Dev nD) : (n : ℕ) → n ≤ cfg0.N → sProp 𝕄
  | 0, _ => Pipeline.ΦA spec0 c
  | n + 1, hn => iprop((owns (c : Thread nD τ) accM fullShare ((stateAt V c n hn).2) ∗ others0 c) ∗ (∃ r, prngReg c r))

theorem accInv_zero (c : Dev nD) (n : ℕ) (h : n ≤ cfg0.N) (hz : n = 0) : accInv V c n h = Pipeline.ΦA spec0 c := by
  subst hz; rfl
theorem accInv_succ (c : Dev nD) (n : ℕ) (hn : n < cfg0.N) :
    accInv V c (n + 1) hn = iprop((owns (c : Thread nD τ) accM fullShare ((stateAt V c n hn).2) ∗ others0 c) ∗ (∃ r, prngReg c r)) := rfl
theorem accInv_pos (c : Dev nD) (n : ℕ) (h : n ≤ cfg0.N) (hz : n ≠ 0) :
    accInv V c n h = iprop((owns (c : Thread nD τ) accM fullShare ((stateAt V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (stateAt V c t.val t.isLt).1
  Φ t := accInv V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem accInv_castSucc (c : Dev nD) (t : Fin cfg0.N) :
    (dat0 V c).Φ t.castSucc = accInv V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (stateAt V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [live0_in 0 (by decide) t, after0_0]
theorem leaves0_1 (c : Dev nD) (t : Fin cfg0.N) : (dat0 V c).leavesExact 1 t = owns (c : Thread nD τ) (ms0_1 t) fullShare (iblk0 V c 1 t) := by
  unfold Dat.leavesExact; rw [live0_in 1 (by decide) t, after0_1]
theorem leaves0_2 (c : Dev nD) (t : Fin cfg0.N) : (dat0 V c).leavesExact 2 t = owns (c : Thread nD τ) (ms0_2 t) fullShare (iblk0 V c 2 t) := by
  unfold Dat.leavesExact; rw [live0_in 2 (by decide) t, after0_2]
theorem leaves0_3 (c : Dev nD) (t : Fin cfg0.N) : (dat0 V c).leavesExact 3 t = owns (c : Thread nD τ) (ms0_3 t) fullShare (iblk0 V c 3 t) := by
  unfold Dat.leavesExact; rw [live0_in 3 (by decide) t, after0_3]
theorem leaves0_4 (c : Dev nD) (t : Fin cfg0.N) : (dat0 V c).leavesExact 4 t = owns (c : Thread nD τ) (ms0_4 t) fullShare (iblk0 V c 4 t) := by
  unfold Dat.leavesExact; rw [live0_in 4 (by decide) t, after0_4]

set_option maxHeartbeats 4800000 in
/-- The body at any point: the inputs' memrefs hold their blocks; the closed forms of the two conditions say which case
    the point is in; the invariant hands the body the accumulator at what the point before left (at anything before
    the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = accInv V c (t.val + 1) t.isLt from rfl, accInv_succ]
  rw [leaves0_0, leaves0_1, leaves0_2, leaves0_3, leaves0_4]
  have hN : t.val < 32 := lt_of_lt_of_eq t.isLt (show cfg0.N = 32 from N_0)
  by_cases h0 : t.val % 8 = 0
  · have hnl : ¬isLast (grid0.coords t) := fun h => absurd ((isLast_iff t).mp h) (by omega)
    rw [Dat.leavesExact_idle (dat0 V c) 5 t (idle0_out t hnl) (noflush0_out t hnl)]
    rw [stateAt_first V c t h0]
    unfold firstAt accFirst; (try dsimp only)
    by_cases hz : t.val = 0
    · rw [accInv_castSucc V c t, accInv_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunFirst c (grid0.coords t) _ _ _ _ _ _ _ _ _ _ _ _ _ _ ((isFirst_iff t).mpr h0) (fun h => absurd ((isLast_iff t).mp h) (by omega)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunFirst c (grid0.coords t) _ _ _ _ _ _ _ _ _ _ _ _ _ _ ((isFirst_iff t).mpr h0) (fun h => absurd ((isLast_iff t).mp h) (by omega)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat0 V c).leavesExact 5 t = owns (c : Thread nD τ) (ms0_5 t) fullShare ((dat0 V c).after 5 t) from by
        unfold Dat.leavesExact; rw [live0_out t ((isLast_iff t).mpr h1)], after0_5]
      rw [stateAt_last V c t h1]
      unfold lastOutAt lastAccAt outLast accLast; (try dsimp only)
      rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunLast c (grid0.coords t) _ _ _ _ _ _ _ _ _ _ _ _ _ _ (fun h => absurd ((isFirst_iff t).mp h) (by omega)) ((isLast_iff t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCover_last c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _ )
    · have hnl : ¬isLast (grid0.coords t) := fun h => h1 ((isLast_iff t).mp h)
      rw [Dat.leavesExact_idle (dat0 V c) 5 t (idle0_out t hnl) (noflush0_out t hnl)]
      rw [stateAt_mid V c t h0 h1]
      unfold midAt accMid; (try dsimp only)
      rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunMid c (grid0.coords t) _ _ _ _ _ _ _ _ _ _ _ _ _ _ (fun h => h0 ((isFirst_iff t).mp h)) (fun h => h1 ((isLast_iff t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = accInv V c 0 (Nat.zero_le _) from rfl, accInv_zero V c 0 _ rfl]
  try exact Idealize.SL.BI.Entails.refl _

/-- After any point the invariant gives the untouched-scratch invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = accInv V c t.val (Nat.le_of_lt_succ t.isLt) from rfl, accInv_pos V c _ _ ht, PhiA0_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.Bits.EFrame.lean ====
/- Region 1 of the idealized kernel program (the second pallas_call, the function that forms
   E = (x·Wqᵀ + bq)·KV block by block), at a parameter V: the contents of the TensorCore's buffers when the
   region is entered.  For every float interpretation F this module says what each of the region's five
   windows holds around a call of the body at a grid point, and proves the body's Hoare triple there:

   * an input window's staging buffer holds the window's block of its array at that point, whether the
     pipeline fetched it there or at an earlier point (its block index has not moved since);
   * the body reads the four input buffers whole and overwrites the whole output buffer by one store, so the
     output buffer afterwards is one function of the four input blocks.

   Nothing here depends on the arithmetic inside the body: the stored value is carried as the one pure term
   the generated skeleton names.  The module that reads that term index by index is EValue. -/
import proofs.«141280_j21363167330926_2_alg».proof.Proof.Gen.Kernel.Launch
import proofs.«141280_j21363167330926_2_alg».proof.Proof.Gen.Kernel.Skeleton
import proofs.«141280_j21363167330926_2_alg».proof.Proof.Gen.Kernel.Points
import Idealize.ShloMosaic.Lib.Pipeline.FrameBody
import Idealize.ShloMosaic.Lib.Ring
import Idealize.ShloMosaic.Lib.Tactic

-- deciding that one rectangle of 1×1024×1024 entries tiles its shape recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- The block of window w's array that grid point t addresses, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The four inputs: the staging buffer holds the block, fetched at this point or not

An input window is refetched only when its block index changes.  The x block changes at every point; the
projection matrix and the bias never change after the first point; the KV block changes with the batch
coordinate, every fourth point.  In each case the buffer handed to the body holds the block the point
addresses: where no fetch happened the index is the previous point's and the body left the buffer alone. -/

theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem holds1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer whole -/

/-- All of a [1,1024,1024] buffer (the x block, the KV block, the output block). -/
abbrev e_whole3 : Rect S1x1024x1024 := Rect.unit (s := S1x1024x1024) ![0, 0, 0] S1x1024x1024.size inb_S1x1024x1024_S1x1024x1024_0_0_0
/-- All of the [1024,1024] projection matrix. -/
abbrev e_whole2 : Rect S1024x1024 := Rect.unit (s := S1024x1024) ![0, 0] S1024x1024.size inb_S1024x1024_S1024x1024_0_0
/-- All of the [1024] bias. -/
abbrev e_whole1 : Rect S1024 := Rect.unit (s := S1024) ![0] S1024.size inb_S1024_S1024_0

/-! ## The output buffer after the body -/

/-- What the body leaves in the output window's buffer, as a function of the four input blocks: its one store,
    over the whole buffer, of the skeleton's pure term of the four whole loads. -/
def out1_4 (x0 : Vec F S1x1024x1024 .f32) (x1 : Vec F S1024x1024 .bf16) (x2 : Vec F S1024 .f32) (x3 : Vec F S1x1024x1024 .bf16) : Vec F S1x1024x1024 .f32 :=
  View.canon [⟨e_whole3, k1_pay1 (View.ld x0 e_whole3) (View.ld x1 e_whole2) (View.ld x2 e_whole1) (View.ld x3 e_whole3)⟩]

/-- The one stored rectangle is the whole buffer, so every index of the buffer lies in it. -/
theorem tiles1_4 (p0 : Vec F S1x1024x1024 .f32) (y : S1x1024x1024.Idx) :
    ∃ pc ∈ ([⟨e_whole3, p0⟩] : List (View.Piece (Elt F) S1x1024x1024 .f32)), y ∈ pc.1.set :=
  View.cover_of_tiled [⟨e_whole3, p0⟩] S1x1024x1024.size (by rfl) y

/-! ## The body's triple on whole staging buffers -/

set_option maxHeartbeats 1000000 in
/-- Called on five whole buffers — the four inputs' at contents x0 … x3, the output's at anything — the body
    runs to its continuation with the inputs' contents unchanged and the output's at out1_4 of them.  (The body
    also loads the output buffer before it stores; the loaded value is not used.) -/
theorem e_body_triple (c : Dev nD) (E : Set ℕ) (i : grid1.Coords)
    (arg2 : Memref sig .tc .vmem S1x1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1x1024x1024 .bf16) (harg5 : arg5.IsWhole)
    (arg6 : Memref sig .tc .vmem S1x1024x1024 .f32) (harg6 : arg6.IsWhole)
    (x0 : Vec F S1x1024x1024 .f32) (x1 : Vec F S1024x1024 .bf16) (x2 : Vec F S1024 .f32) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__e_kernel i arg2 harg2 arg3 harg3 arg4 harg4 arg5 harg5 arg6 harg6) K := by
  simp only [cc1__e_kernel_eq_skeleton]; unfold cc1__e_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tiles1_4 _)

/-! ## The pipeline's proof data -/

/-- Region 1's proof data on core c: the arrays are the region-entry contents; after the body at point t every
    input buffer still holds its block and the output buffer holds out1_4 of the four input blocks; the
    invariant is the untouched rest (the other scoped buffers and the generator register); nothing is owed and
    every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d
theorem holds1_3 (c : Dev nD) (t : Fin cfg1.N) (d) : (dat1 V c).before 3 t d = iblk1 V c 3 t :=
  holds1_3_of V (dat1 V c) (A_eq1 V c 3) (after1_3 V c) t d

/-! ## The body obligation at a generic point -/

/-- What the pipeline hands the body at point t: the invariant, what is owed, and each window's current staging
    buffer at what the proof data says it holds there; -/
def ePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what the body hands back. -/
def ePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple above applies with the four
    blocks for x0 … x3; the invariant and what is owed pass through unread. -/
theorem e_body_at (c : Dev nD) (t : Fin cfg1.N) :
    ePre V c t ⊢ wp frame (wpE (defs₀ (F := F)) Variants.none c none) Set.univ (bodyAt1 t) (fun _ => ePost V c t) := by
  unfold ePre ePost bodyAt1
  simp only [holds1_0, holds1_1, holds1_2, holds1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (e_body_triple c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 1, at every point. -/
theorem body_obligation1 (c : Dev nD) : BodyObligation (dat1 (F := F) V c) (defs₀ (F := F)) Variants.none () Set.univ := fun t => by
  rw [bigSep_W1, bigSep_W1]
  exact e_body_at V c t

end Cert.Kernel.Hand

end
-- ==== Proof.Bits.MainRun.lean ====
/-
  The whole run of @main: three format conversions on the host (the weights to bf16), region 0 (KV), region 1 (E).
  The buffer contents at each boundary are a fold from the launch memory: after the host stretch, then region 0's
  arrays at what its write-backs leave, then region 1's.  Every weakly fair execution terminates without a fault and
  every final memory holds every unscoped buffer at the last fold.  No item writes an argument array.
-/
import proofs.«141280_j21363167330926_2_alg».proof.Proof.Bits.KVFrame
import proofs.«141280_j21363167330926_2_alg».proof.Proof.Bits.EFrame
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit (the end of @main). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the boundary's contents, left with the
    region's arrays at what its write-backs leave and every other buffer as entered; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (show Pipeline.ΦA spec0 c ⊢ (pdats m ρ 0 c).Φ 0 from hin0 (V1 m ρ) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; nothing owed; no semaphore of
    the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Hand

end
-- ==== Proof.KVShared.lean ====
/-
  Region 0 (the K^T V accumulation, grid 4 × 8): what its three control cases share.  A grid point is t = 8·b + s:
  batch b, S-tile s of 512 rows.  The body zero-fills the accumulator when s = 0, adds the tile's partial product
  K_tile^T V_tile to it at every point, and when s = 7 scales it and stores it into the output block, which is
  written back only there.  Here: the input blocks as read off the arrays the region is entered with, the two
  branch conditions in closed form, where the output window is idle, and the memrefs the body is run on.
-/
import proofs.«141280_j21363167330926_2_alg».proof.Proof.Gen.KernelIdeal.Launch
import proofs.«141280_j21363167330926_2_alg».proof.Proof.Gen.KernelIdeal.Skeleton
import proofs.«141280_j21363167330926_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data over the entry arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data over the entry arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data over the entry arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data over the entry arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data over the entry arrays that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first S-tile" (s = 0), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last S-tile" (s = 7). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_in : ∀ (w : Fin cfg0.W), w.val < 5 → ∀ t : Fin cfg0.N, cfg0.idle w (grid0.coords t) = false := by decide +kernel
/-- Off the last S-tile the output block is neither stored into nor written back. -/
theorem idle0_out : ∀ t : Fin cfg0.N, ¬isLast (grid0.coords t) → cfg0.idle 5 (grid0.coords t) = true := by decide +kernel
theorem noflush0_out : ∀ t : Fin cfg0.N, ¬isLast (grid0.coords t) → (cfg0.win 5).flush t = false := by decide +kernel
theorem live0_out : ∀ t : Fin cfg0.N, isLast (grid0.coords t) → cfg0.idle 5 (grid0.coords t) = false := by decide +kernel

/-! ## The memrefs the body runs on -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev accM : Memref sig .tc .vmem S1024x1024 .f32 := Memref.whole cc0_scratch0
/-- The views through which the output block's and the accumulator's contents are stated. -/
abbrev outV : View sig .tc .vmem S1x1024x1024 .bf16 := (Memref.whole cc0_stg5_0 : Memref sig .tc .vmem S1x1024x1024 .bf16).view
abbrev accV : View sig .tc .vmem S1024x1024 .f32 := accM.view

/-- The scoped buffers of the core that region 0 neither stages nor uses (region 1's staging buffers), at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's untouched-scratch invariant with the accumulator split out as a memref owned at some contents. -/
theorem PhiA0_eq (c : Dev nD) :
    (Pipeline.ΦA spec0 c : sProp 𝕄)
      = iprop(((∃ d, owns (c : Thread nD τ) accM fullShare d) ∗ others0 c) ∗ (∃ r, prngReg c r)) := by
  unfold Pipeline.ΦA others0; rw [scopedRest0_eq]; simp only [accM, owns_whole]; try rfl

end Cert.KernelIdeal.Hand

end
-- ==== Proof.KVRunFirst.lean ====
/- Region 0's body at the first S-tile of a batch (s = 0): zero-fill the accumulator, then add this tile's K^T V. -/
import proofs.«141280_j21363167330926_2_alg».proof.Proof.KVShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunFirst (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i)
    (x0 : Vec F S1x512x1024 .f32) (x1 : Vec F S1024x1024 .bf16) (x2 : Vec F S1024 .f32) (x3 : Vec F S1024x1024 .bf16) (x4 : Vec F S1024 .f32) :
    Σ' (L5 : List (View.Piece (Elt F) S1x1024x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KVRunMid.lean ====
/- Region 0's body at a middle S-tile (0 < s < 7): add this tile's K^T V to the accumulator the tile before left. -/
import proofs.«141280_j21363167330926_2_alg».proof.Proof.KVShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunMid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i)
    (x0 : Vec F S1x512x1024 .f32) (x1 : Vec F S1024x1024 .bf16) (x2 : Vec F S1024 .f32) (x3 : Vec F S1024x1024 .bf16) (x4 : Vec F S1024 .f32) (xs : Vec F S1024x1024 .f32) :
    Σ' (L5 : List (View.Piece (Elt F) S1x1024x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KVRunLast.lean ====
/- Region 0's body at the last S-tile (s = 7): add this tile's K^T V, then scale the accumulator into the output block. -/
import proofs.«141280_j21363167330926_2_alg».proof.Proof.KVShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the output block and in the accumulator in this case, with the
    proof that on whole staging memrefs holding the input blocks the body runs to a continuation that gets the inputs
    back as they were and the stored-into buffers with those pieces written. -/
noncomputable def kvRunLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i)
    (x0 : Vec F S1x512x1024 .f32) (x1 : Vec F S1024x1024 .bf16) (x2 : Vec F S1024 .f32) (x3 : Vec F S1024x1024 .bf16) (x4 : Vec F S1024 .f32) (xs : Vec F S1024x1024 .f32) :
    Σ' (L5 : List (View.Piece (Elt F) S1x1024x1024 .bf16)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KVFrame.lean ====
/-
  Region 0's proof data.  After the body at point t = 8·b + s the accumulator holds: at s = 0 what the first-tile run
  leaves (zero-fill, then this tile's partial product added); at 0 < s ≤ 7 what the run leaves over the accumulator of
  point t − 1.  The output block holds what the last-tile run stores (the scaled accumulator) at s = 7 and is idle
  elsewhere.  The region's invariant carries the accumulator from point to point at exactly these contents.
-/
import proofs.«141280_j21363167330926_2_alg».proof.Proof.KVRunFirst
import proofs.«141280_j21363167330926_2_alg».proof.Proof.KVRunMid
import proofs.«141280_j21363167330926_2_alg».proof.Proof.KVRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem accCover_first (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i) (x0 : Vec F S1x512x1024 .f32) (x1 : Vec F S1024x1024 .bf16) (x2 : Vec F S1024 .f32) (x3 : Vec F S1024x1024 .bf16) (x4 : Vec F S1024 .f32) (y : S1024x1024.Idx) :
    ∃ pc ∈ (kvRunFirst c i arg2 harg2 arg3 harg3 arg4 harg4 arg5 harg5 arg6 harg6 arg7 harg7 arg8 harg8 hc0 hc1 x0 x1 x2 x3 x4).2.1, y ∈ pc.1.set :=
  View.cover_of_tiledL (kvRunFirst c i arg2 harg2 arg3 harg3 arg4 harg4 arg5 harg5 arg6 harg6 arg7 harg7 arg8 harg8 hc0 hc1 x0 x1 x2 x3 x4).2.1 S1024x1024.size (by sl_kernel_rfl) y
/-- The accumulator after a first tile: its pieces read back. -/
def accFirst (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i) (x0 : Vec F S1x512x1024 .f32) (x1 : Vec F S1024x1024 .bf16) (x2 : Vec F S1024 .f32) (x3 : Vec F S1024x1024 .bf16) (x4 : Vec F S1024 .f32) : Vec F S1024x1024 .f32 :=
  accV.read (Elt F) (accV.writes (Elt F) accV.junk (kvRunFirst c i arg2 harg2 arg3 harg3 arg4 harg4 arg5 harg5 arg6 harg6 arg7 harg7 arg8 harg8 hc0 hc1 x0 x1 x2 x3 x4).2.1)

theorem accCover_mid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1024x1024.Idx) :
    ∃ pc ∈ (kvRunMid c i arg2 harg2 arg3 harg3 arg4 harg4 arg5 harg5 arg6 harg6 arg7 harg7 arg8 harg8 hc0 hc1 x0 x1 x2 x3 x4 xs).2.1, y ∈ pc.1.set :=
  View.cover_of_tiledL (kvRunMid c i arg2 harg2 arg3 harg3 arg4 harg4 arg5 harg5 arg6 harg6 arg7 harg7 arg8 harg8 hc0 hc1 x0 x1 x2 x3 x4 xs).2.1 S1024x1024.size (by sl_kernel_rfl) y
/-- The accumulator after a middle tile, over what the tile before left. -/
def accMid (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1024x1024 .f32 :=
  accV.read (Elt F) (accV.writes (Elt F) accV.junk (kvRunMid c i arg2 harg2 arg3 harg3 arg4 harg4 arg5 harg5 arg6 harg6 arg7 harg7 arg8 harg8 hc0 hc1 x0 x1 x2 x3 x4 xs).2.1)

theorem accCover_last (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1024x1024.Idx) :
    ∃ pc ∈ (kvRunLast c i arg2 harg2 arg3 harg3 arg4 harg4 arg5 harg5 arg6 harg6 arg7 harg7 arg8 harg8 hc0 hc1 x0 x1 x2 x3 x4 xs).2.1, y ∈ pc.1.set :=
  View.cover_of_tiledL (kvRunLast c i arg2 harg2 arg3 harg3 arg4 harg4 arg5 harg5 arg6 harg6 arg7 harg7 arg8 harg8 hc0 hc1 x0 x1 x2 x3 x4 xs).2.1 S1024x1024.size (by sl_kernel_rfl) y
/-- The accumulator after a last tile. -/
def accLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1024x1024 .f32 :=
  accV.read (Elt F) (accV.writes (Elt F) accV.junk (kvRunLast c i arg2 harg2 arg3 harg3 arg4 harg4 arg5 harg5 arg6 harg6 arg7 harg7 arg8 harg8 hc0 hc1 x0 x1 x2 x3 x4 xs).2.1)

theorem outCover_last (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) (y : S1x1024x1024.Idx) :
    ∃ pc ∈ (kvRunLast c i arg2 harg2 arg3 harg3 arg4 harg4 arg5 harg5 arg6 harg6 arg7 harg7 arg8 harg8 hc0 hc1 x0 x1 x2 x3 x4 xs).1, y ∈ pc.1.set :=
  View.cover_of_tiledL (kvRunLast c i arg2 harg2 arg3 harg3 arg4 harg4 arg5 harg5 arg6 harg6 arg7 harg7 arg8 harg8 hc0 hc1 x0 x1 x2 x3 x4 xs).1 S1x1024x1024.size (by sl_kernel_rfl) y
/-- The output block after a last tile. -/
def outLast (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) : Vec F S1x1024x1024 .bf16 :=
  outV.read (Elt F) (outV.writes (Elt F) outV.junk (kvRunLast c i arg2 harg2 arg3 harg3 arg4 harg4 arg5 harg5 arg6 harg6 arg7 harg7 arg8 harg8 hc0 hc1 x0 x1 x2 x3 x4 xs).1)

/-- A placeholder for the output block where the window is idle (neither stored into nor written back there). -/
def outIdle : Vec F S1x1024x1024 .bf16 := outV.read (Elt F) (outV.junk (Val := Elt F))

/-! ## The cases at a grid point, on that point's memrefs and input blocks -/

def firstAt (c : Dev nD) (t : Fin cfg0.N) (h0 : t.val % 8 = 0) : Vec F S1024x1024 .f32 :=
  accFirst c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) ((isFirst_iff t).mpr h0) (fun h => absurd ((isLast_iff t).mp h) (by omega)) (iblk0 V c 0 t) (iblk0 V c 1 t) (iblk0 V c 2 t) (iblk0 V c 3 t) (iblk0 V c 4 t)
def midAt (c : Dev nD) (t : Fin cfg0.N) (h0 : ¬t.val % 8 = 0) (h1 : ¬t.val % 8 = 7) (xs : Vec F S1024x1024 .f32) : Vec F S1024x1024 .f32 :=
  accMid c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => h0 ((isFirst_iff t).mp h)) (fun h => h1 ((isLast_iff t).mp h)) (iblk0 V c 0 t) (iblk0 V c 1 t) (iblk0 V c 2 t) (iblk0 V c 3 t) (iblk0 V c 4 t) xs
def lastAccAt (c : Dev nD) (t : Fin cfg0.N) (h1 : t.val % 8 = 7) (xs : Vec F S1024x1024 .f32) : Vec F S1024x1024 .f32 :=
  accLast c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => absurd ((isFirst_iff t).mp h) (by omega)) ((isLast_iff t).mpr h1) (iblk0 V c 0 t) (iblk0 V c 1 t) (iblk0 V c 2 t) (iblk0 V c 3 t) (iblk0 V c 4 t) xs
def lastOutAt (c : Dev nD) (t : Fin cfg0.N) (h1 : t.val % 8 = 7) (xs : Vec F S1024x1024 .f32) : Vec F S1x1024x1024 .bf16 :=
  outLast c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) (fun h => absurd ((isFirst_iff t).mp h) (by omega)) ((isLast_iff t).mpr h1) (iblk0 V c 0 t) (iblk0 V c 1 t) (iblk0 V c 2 t) (iblk0 V c 3 t) (iblk0 V c 4 t) xs

/-! ## The accumulation, point by point -/

/-- The output block's staging buffer and the accumulator after the body at position `n`. -/
def stateAt (c : Dev nD) : (n : ℕ) → n < cfg0.N → Vec F S1x1024x1024 .bf16 × Vec F S1024x1024 .f32
  | 0, hn => (outIdle, firstAt V c ⟨0, hn⟩ (Nat.zero_mod _))
  | n + 1, hn =>
    if h0 : (n + 1) % 8 = 0 then (outIdle, firstAt V c ⟨n + 1, hn⟩ h0)
    else if h1 : (n + 1) % 8 = 7 then
      (lastOutAt V c ⟨n + 1, hn⟩ h1 (stateAt c n (Nat.lt_of_succ_lt hn)).2, lastAccAt V c ⟨n + 1, hn⟩ h1 (stateAt c n (Nat.lt_of_succ_lt hn)).2)
    else (outIdle, midAt V c ⟨n + 1, hn⟩ h0 h1 (stateAt c n (Nat.lt_of_succ_lt hn)).2)

theorem stateAt_first (c : Dev nD) (t : Fin cfg0.N) (h0 : t.val % 8 = 0) :
    stateAt V c t.val t.isLt = (outIdle, firstAt V c t h0) := by
  obtain ⟨n, hn⟩ := t
  cases n with
  | zero => rfl
  | succ n => exact (dif_pos h0)

theorem stateAt_mid (c : Dev nD) (t : Fin cfg0.N) (h0 : ¬t.val % 8 = 0) (h1 : ¬t.val % 8 = 7) :
    stateAt V c t.val t.isLt = (outIdle, midAt V c t h0 h1 (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem stateAt_last (c : Dev nD) (t : Fin cfg0.N) (h1 : t.val % 8 = 7) :
    stateAt V c t.val t.isLt = (lastOutAt V c t h1 (stateAt V c (t.val - 1) (Nat.lt_of_le_of_lt (Nat.sub_le _ _) t.isLt)).2, lastAccAt V c t h1 (stateAt V c (t.val - 1) (Nat.lt_of_le_of_lt (Nat.sub_le _ _) t.isLt)).2) := by
  obtain ⟨n, hn⟩ := t
  cases n with
  | zero => exact absurd (show (0 : ℕ) % 8 = 7 from h1) (by decide)
  | succ n =>
    have h1' : (n + 1) % 8 = 7 := h1
    exact (dif_neg (by omega)).trans (dif_pos h1)

/-- The region's invariant before position `n`: before the first point every scratch at anything; afterwards the
    accumulator at what the point before left, the scoped buffers the region does not use at anything, the generator
    register at some state. -/
def accInv (c : Dev nD) : (n : ℕ) → n ≤ cfg0.N → sProp 𝕄
  | 0, _ => Pipeline.ΦA spec0 c
  | n + 1, hn => iprop((owns (c : Thread nD τ) accM fullShare ((stateAt V c n hn).2) ∗ others0 c) ∗ (∃ r, prngReg c r))

theorem accInv_zero (c : Dev nD) (n : ℕ) (h : n ≤ cfg0.N) (hz : n = 0) : accInv V c n h = Pipeline.ΦA spec0 c := by
  subst hz; rfl
theorem accInv_succ (c : Dev nD) (n : ℕ) (hn : n < cfg0.N) :
    accInv V c (n + 1) hn = iprop((owns (c : Thread nD τ) accM fullShare ((stateAt V c n hn).2) ∗ others0 c) ∗ (∃ r, prngReg c r)) := rfl
theorem accInv_pos (c : Dev nD) (n : ℕ) (h : n ≤ cfg0.N) (hz : n ≠ 0) :
    accInv V c n h = iprop((owns (c : Thread nD τ) accM fullShare ((stateAt V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (stateAt V c t.val t.isLt).1
  Φ t := accInv V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem accInv_castSucc (c : Dev nD) (t : Fin cfg0.N) :
    (dat0 V c).Φ t.castSucc = accInv V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (stateAt V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [live0_in 0 (by decide) t, after0_0]
theorem leaves0_1 (c : Dev nD) (t : Fin cfg0.N) : (dat0 V c).leavesExact 1 t = owns (c : Thread nD τ) (ms0_1 t) fullShare (iblk0 V c 1 t) := by
  unfold Dat.leavesExact; rw [live0_in 1 (by decide) t, after0_1]
theorem leaves0_2 (c : Dev nD) (t : Fin cfg0.N) : (dat0 V c).leavesExact 2 t = owns (c : Thread nD τ) (ms0_2 t) fullShare (iblk0 V c 2 t) := by
  unfold Dat.leavesExact; rw [live0_in 2 (by decide) t, after0_2]
theorem leaves0_3 (c : Dev nD) (t : Fin cfg0.N) : (dat0 V c).leavesExact 3 t = owns (c : Thread nD τ) (ms0_3 t) fullShare (iblk0 V c 3 t) := by
  unfold Dat.leavesExact; rw [live0_in 3 (by decide) t, after0_3]
theorem leaves0_4 (c : Dev nD) (t : Fin cfg0.N) : (dat0 V c).leavesExact 4 t = owns (c : Thread nD τ) (ms0_4 t) fullShare (iblk0 V c 4 t) := by
  unfold Dat.leavesExact; rw [live0_in 4 (by decide) t, after0_4]

set_option maxHeartbeats 4800000 in
/-- The body at any point: the inputs' memrefs hold their blocks; the closed forms of the two conditions say which case
    the point is in; the invariant hands the body the accumulator at what the point before left (at anything before
    the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = accInv V c (t.val + 1) t.isLt from rfl, accInv_succ]
  rw [leaves0_0, leaves0_1, leaves0_2, leaves0_3, leaves0_4]
  have hN : t.val < 32 := lt_of_lt_of_eq t.isLt (show cfg0.N = 32 from N_0)
  by_cases h0 : t.val % 8 = 0
  · have hnl : ¬isLast (grid0.coords t) := fun h => absurd ((isLast_iff t).mp h) (by omega)
    rw [Dat.leavesExact_idle (dat0 V c) 5 t (idle0_out t hnl) (noflush0_out t hnl)]
    rw [stateAt_first V c t h0]
    unfold firstAt accFirst; (try dsimp only)
    by_cases hz : t.val = 0
    · rw [accInv_castSucc V c t, accInv_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunFirst c (grid0.coords t) _ _ _ _ _ _ _ _ _ _ _ _ _ _ ((isFirst_iff t).mpr h0) (fun h => absurd ((isLast_iff t).mp h) (by omega)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunFirst c (grid0.coords t) _ _ _ _ _ _ _ _ _ _ _ _ _ _ ((isFirst_iff t).mpr h0) (fun h => absurd ((isLast_iff t).mp h) (by omega)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_first c _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat0 V c).leavesExact 5 t = owns (c : Thread nD τ) (ms0_5 t) fullShare ((dat0 V c).after 5 t) from by
        unfold Dat.leavesExact; rw [live0_out t ((isLast_iff t).mpr h1)], after0_5]
      rw [stateAt_last V c t h1]
      unfold lastOutAt lastAccAt outLast accLast; (try dsimp only)
      rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunLast c (grid0.coords t) _ _ _ _ _ _ _ _ _ _ _ _ _ _ (fun h => absurd ((isFirst_iff t).mp h) (by omega)) ((isLast_iff t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCover_last c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _ )
    · have hnl : ¬isLast (grid0.coords t) := fun h => h1 ((isLast_iff t).mp h)
      rw [Dat.leavesExact_idle (dat0 V c) 5 t (idle0_out t hnl) (noflush0_out t hnl)]
      rw [stateAt_mid V c t h0 h1]
      unfold midAt accMid; (try dsimp only)
      rw [accInv_castSucc V c t, accInv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kvRunMid c (grid0.coords t) _ _ _ _ _ _ _ _ _ _ _ _ _ _ (fun h => h0 ((isFirst_iff t).mp h)) (fun h => h1 ((isLast_iff t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = accInv V c 0 (Nat.zero_le _) from rfl, accInv_zero V c 0 _ rfl]
  try exact Idealize.SL.BI.Entails.refl _

/-- After any point the invariant gives the untouched-scratch invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = accInv V c t.val (Nat.le_of_lt_succ t.isLt) from rfl, accInv_pos V c _ _ ht, PhiA0_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.EFrame.lean ====
/- Region 1 of the idealized kernel program (the second pallas_call, the function that forms
   E = (x·Wqᵀ + bq)·KV block by block), at a parameter V: the contents of the TensorCore's buffers when the
   region is entered.  For every float interpretation F this module says what each of the region's five
   windows holds around a call of the body at a grid point, and proves the body's Hoare triple there:

   * an input window's staging buffer holds the window's block of its array at that point, whether the
     pipeline fetched it there or at an earlier point (its block index has not moved since);
   * the body reads the four input buffers whole and overwrites the whole output buffer by one store, so the
     output buffer afterwards is one function of the four input blocks.

   Nothing here depends on the arithmetic inside the body: the stored value is carried as the one pure term
   the generated skeleton names.  The module that reads that term index by index is EValue. -/
import proofs.«141280_j21363167330926_2_alg».proof.Proof.Gen.KernelIdeal.Launch
import proofs.«141280_j21363167330926_2_alg».proof.Proof.Gen.KernelIdeal.Skeleton
import proofs.«141280_j21363167330926_2_alg».proof.Proof.Gen.KernelIdeal.Points
import Idealize.ShloMosaic.Lib.Pipeline.FrameBody
import Idealize.ShloMosaic.Lib.Ring
import Idealize.ShloMosaic.Lib.Tactic

-- deciding that one rectangle of 1×1024×1024 entries tiles its shape recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- The block of window w's array that grid point t addresses, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The four inputs: the staging buffer holds the block, fetched at this point or not

An input window is refetched only when its block index changes.  The x block changes at every point; the
projection matrix and the bias never change after the first point; the KV block changes with the batch
coordinate, every fourth point.  In each case the buffer handed to the body holds the block the point
addresses: where no fetch happened the index is the previous point's and the body left the buffer alone. -/

theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem holds1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer whole -/

/-- All of a [1,1024,1024] buffer (the x block, the KV block, the output block). -/
abbrev e_whole3 : Rect S1x1024x1024 := Rect.unit (s := S1x1024x1024) ![0, 0, 0] S1x1024x1024.size inb_S1x1024x1024_S1x1024x1024_0_0_0
/-- All of the [1024,1024] projection matrix. -/
abbrev e_whole2 : Rect S1024x1024 := Rect.unit (s := S1024x1024) ![0, 0] S1024x1024.size inb_S1024x1024_S1024x1024_0_0
/-- All of the [1024] bias. -/
abbrev e_whole1 : Rect S1024 := Rect.unit (s := S1024) ![0] S1024.size inb_S1024_S1024_0

/-! ## The output buffer after the body -/

/-- What the body leaves in the output window's buffer, as a function of the four input blocks: its one store,
    over the whole buffer, of the skeleton's pure term of the four whole loads. -/
def out1_4 (x0 : Vec F S1x1024x1024 .f32) (x1 : Vec F S1024x1024 .bf16) (x2 : Vec F S1024 .f32) (x3 : Vec F S1x1024x1024 .bf16) : Vec F S1x1024x1024 .f32 :=
  View.canon [⟨e_whole3, k1_pay1 (View.ld x0 e_whole3) (View.ld x1 e_whole2) (View.ld x2 e_whole1) (View.ld x3 e_whole3)⟩]

/-- The one stored rectangle is the whole buffer, so every index of the buffer lies in it. -/
theorem tiles1_4 (p0 : Vec F S1x1024x1024 .f32) (y : S1x1024x1024.Idx) :
    ∃ pc ∈ ([⟨e_whole3, p0⟩] : List (View.Piece (Elt F) S1x1024x1024 .f32)), y ∈ pc.1.set :=
  View.cover_of_tiled [⟨e_whole3, p0⟩] S1x1024x1024.size (by rfl) y

/-! ## The body's triple on whole staging buffers -/

set_option maxHeartbeats 1000000 in
/-- Called on five whole buffers — the four inputs' at contents x0 … x3, the output's at anything — the body
    runs to its continuation with the inputs' contents unchanged and the output's at out1_4 of them.  (The body
    also loads the output buffer before it stores; the loaded value is not used.) -/
theorem e_body_triple (c : Dev nD) (E : Set ℕ) (i : grid1.Coords)
    (arg2 : Memref sig .tc .vmem S1x1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1x1024x1024 .bf16) (harg5 : arg5.IsWhole)
    (arg6 : Memref sig .tc .vmem S1x1024x1024 .f32) (harg6 : arg6.IsWhole)
    (x0 : Vec F S1x1024x1024 .f32) (x1 : Vec F S1024x1024 .bf16) (x2 : Vec F S1024 .f32) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__e_kernel i arg2 harg2 arg3 harg3 arg4 harg4 arg5 harg5 arg6 harg6) K := by
  simp only [cc1__e_kernel_eq_skeleton]; unfold cc1__e_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tiles1_4 _)

/-! ## The pipeline's proof data -/

/-- Region 1's proof data on core c: the arrays are the region-entry contents; after the body at point t every
    input buffer still holds its block and the output buffer holds out1_4 of the four input blocks; the
    invariant is the untouched rest (the other scoped buffers and the generator register); nothing is owed and
    every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d
theorem holds1_3 (c : Dev nD) (t : Fin cfg1.N) (d) : (dat1 V c).before 3 t d = iblk1 V c 3 t :=
  holds1_3_of V (dat1 V c) (A_eq1 V c 3) (after1_3 V c) t d

/-! ## The body obligation at a generic point -/

/-- What the pipeline hands the body at point t: the invariant, what is owed, and each window's current staging
    buffer at what the proof data says it holds there; -/
def ePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what the body hands back. -/
def ePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple above applies with the four
    blocks for x0 … x3; the invariant and what is owed pass through unread. -/
theorem e_body_at (c : Dev nD) (t : Fin cfg1.N) :
    ePre V c t ⊢ wp frame (wpE (defs₀ (F := F)) Variants.none c none) Set.univ (bodyAt1 t) (fun _ => ePost V c t) := by
  unfold ePre ePost bodyAt1
  simp only [holds1_0, holds1_1, holds1_2, holds1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (e_body_triple c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 1, at every point. -/
theorem body_obligation1 (c : Dev nD) : BodyObligation (dat1 (F := F) V c) (defs₀ (F := F)) Variants.none () Set.univ := fun t => by
  rw [bigSep_W1, bigSep_W1]
  exact e_body_at V c t

end Cert.KernelIdeal.Hand

end
-- ==== Proof.MainRun.lean ====
/-
  The whole run of @main: three format conversions on the host (the weights to bf16), region 0 (KV), region 1 (E).
  The buffer contents at each boundary are a fold from the launch memory: after the host stretch, then region 0's
  arrays at what its write-backs leave, then region 1's.  Every weakly fair execution terminates without a fault and
  every final memory holds every unscoped buffer at the last fold.  No item writes an argument array.
-/
import proofs.«141280_j21363167330926_2_alg».proof.Proof.KVFrame
import proofs.«141280_j21363167330926_2_alg».proof.Proof.EFrame
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit (the end of @main). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the boundary's contents, left with the
    region's arrays at what its write-backs leave and every other buffer as entered; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (show Pipeline.ΦA spec0 c ⊢ (pdats m ρ 0 c).Φ 0 from hin0 (V1 m ρ) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; nothing owed; no semaphore of
    the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.KVPieces.lean ====
/-
  What the three control cases of the key–value region's body leave in the accumulator and in the output block,
  as payloads of the input blocks.  In every case the body's last store into the accumulator covers it whole, and
  its payload is the accumulation step applied to what the accumulator held when the step read it: the zero fill
  at the first tile of a batch (the fill is stored first and read back), the contents handed in at every other
  tile.  At the last tile the output block is covered whole by one store of the scaling payload applied to the
  accumulator as the accumulation step has just left it.  Every load and store goes through the whole-buffer
  rectangle at zero offsets, through which a load reads the contents and a store leaves its payload.
-/
import proofs.«141280_j21363167330926_2_alg».proof.Proof.KVFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of the whole-buffer rectangles, as constant functions. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the accumulator ends at the accumulation step over the zero fill. -/
theorem accFirst_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : isFirst i) (hc1 : ¬isLast i) (x0 : Vec F S1x512x1024 .f32) (x1 : Vec F S1024x1024 .bf16) (x2 : Vec F S1024 .f32) (x3 : Vec F S1024x1024 .bf16) (x4 : Vec F S1024 .f32) :
    accFirst c i arg2 harg2 arg3 harg3 arg4 harg4 arg5 harg5 arg6 harg6 arg7 harg7 arg8 harg8 hc0 hc1 x0 x1 x2 x3 x4 = k0_pay2 x0 x1 x3 x2 x4 (k0_pay1 (F := F)) := by
  unfold accFirst
  rw [View.read_writes_junk_eq_canon]
  unfold kvRunFirst
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, harg8.read_unread,
    View.ld_unit_zero (S := S1x512x1024) hz3, View.ld_unit_zero (S := S1024x1024) hz2, View.ld_unit_zero (S := S1024) hz1]

/-- A middle tile: the accumulator ends at the accumulation step over what it held. -/
theorem accMid_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : ¬isLast i) (x0 : Vec F S1x512x1024 .f32) (x1 : Vec F S1024x1024 .bf16) (x2 : Vec F S1024 .f32) (x3 : Vec F S1024x1024 .bf16) (x4 : Vec F S1024 .f32) (xs : Vec F S1024x1024 .f32) :
    accMid c i arg2 harg2 arg3 harg3 arg4 harg4 arg5 harg5 arg6 harg6 arg7 harg7 arg8 harg8 hc0 hc1 x0 x1 x2 x3 x4 xs = k0_pay2 x0 x1 x3 x2 x4 xs := by
  unfold accMid
  rw [View.read_writes_junk_eq_canon]
  unfold kvRunMid
  dsimp only
  rw [View.canon_unit_zero hz2]
  simp only [View.readAt_eq_ld, harg2.read_unread, harg3.read_unread, harg4.read_unread, harg5.read_unread, harg6.read_unread, harg8.read_unread,
    View.ld_unit_zero (S := S1x512x1024) hz3, View.ld_unit_zero (S := S1024x1024) hz2, View.ld_unit_zero (S := S1024) hz1]

/-- The last tile: the accumulator likewise ends at the accumulation step over what it held … -/
theorem accLast_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) :
    accLast c i arg2 harg2 arg3 harg3 arg4 harg4 arg5 harg5 arg6 harg6 arg7 harg7 arg8 harg8 hc0 hc1 x0 x1 x2 x3 x4 xs = k0_pay2 x0 x1 x3 x2 x4 xs := by
  unfold accLast
  rw [View.read_writes_junk_eq_canon]
  unfold kvRunLast
  dsimp only
  sl_unfold_words
  rw [View.canon_unit_zero hz2]
  simp only [View.readAt_eq_ld, harg2.read_unread, harg3.read_unread, harg4.read_unread, harg5.read_unread, harg6.read_unread, harg8.read_unread,
    View.ld_unit_zero (S := S1x512x1024) hz3, View.ld_unit_zero (S := S1024x1024) hz2, View.ld_unit_zero (S := S1024) hz1]

/-- … and the output block ends at the scaling payload of exactly that. -/
theorem outLast_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬isFirst i) (hc1 : isLast i) (x0 : Vec F S1x512x1024 .f32) (x1 : Vec F S1024x1024 .bf16) (x2 : Vec F S1024 .f32) (x3 : Vec F S1024x1024 .bf16) (x4 : Vec F S1024 .f32) (xs : Vec F S1024x1024 .f32) :
    outLast c i arg2 harg2 arg3 harg3 arg4 harg4 arg5 harg5 arg6 harg6 arg7 harg7 arg8 harg8 hc0 hc1 x0 x1 x2 x3 x4 xs = k0_pay3 (k0_pay2 x0 x1 x3 x2 x4 xs) := by
  unfold outLast
  rw [View.read_writes_junk_eq_canon]
  unfold kvRunLast
  dsimp only
  rw [View.canon_unit_zero hz3]
  sl_unfold_words
  rw [View.readCov_unit_zero (S := S1024x1024) _ hz2]
  simp only [View.readAt_eq_ld, harg2.read_unread, harg3.read_unread, harg4.read_unread, harg5.read_unread, harg6.read_unread, harg8.read_unread,
    View.ld_unit_zero (S := S1x512x1024) hz3, View.ld_unit_zero (S := S1024x1024) hz2, View.ld_unit_zero (S := S1024) hz1]

end Cert.KernelIdeal.Hand

end
-- ==== Proof.KVValue.lean ====
/-
  The values of the three store payloads of the key–value region, read at one index, at the ideal
  (extended-real) values.

  With x the 512-row tile of the input, Wk, Wv the two weight matrices and bk, bv the two bias rows,
  the accumulation payload is, entry (d, e),
      acc[d, e] + ∑ r, ((∑ k, x[r, k] * Wk[d, k]) + bk[d]) * ((∑ k, x[r, k] * Wv[e, k]) + bv[e]);
  the zero fill is 0 everywhere; the last payload multiplies every entry by one fixed word, which is
  kept as the word it is. Format changes between the 16-bit and 32-bit formats are the identity on
  extended reals, a shape cast between [a, b] and [1, a, b] (or [a] and [1, a]) only renames the
  index, and a product of matrices into a zero accumulator is the plain sum over the contracted axis.
-/
import proofs.«141280_j21363167330926_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The zero fill is the extended real 0 at every entry. -/
theorem pay_zero (d e : Fin 1024) : k0_pay1 (F := Ideal) (ix2 d e) = 0 := by
  unfold k0_pay1
  rw [shapeCast_self]
  exact Ideal.ofBits_zero_f32

/-! ## The two kinds of matrix product, into a zero accumulator, read at an entry -/

/-- Rows against rows: the first operand's row axis is kept (read from the entry's first coordinate) … -/
theorem lhs_rows_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … its column axis is the contracted one … -/
theorem lhs_rows_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- … the second operand's row axis is read from the entry's second coordinate … -/
theorem rhs_rows_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and its column axis is the contracted one. -/
theorem rhs_rows_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A [512, 1024] matrix times the transpose of a [1024, 1024] matrix, into a zero accumulator: entry
    (r, c) is the sum over k of A[r, k] * B[c, k]. -/
theorem mm_rows {φ₁ φ₂ : FTy} (A : FVec Ideal S512x1024 φ₁) (B : FVec Ideal S1024x1024 φ₂) (r : Fin 512) (c : Fin 1024) :
    matmul dot_S512x1024_S1024x1024_S512x1024_1_1_0_0_n_n none A B (constant S512x1024 .f32 0x00000000#32) (ix2 r c)
      = ∑ k : Fin 1024, A (ix2 r k) * B (ix2 c k) := by
  refine (Ideal.matmul_constant_zero_apply dot_S512x1024_S1024x1024_S512x1024_1_1_0_0_n_n none A B (ix2 r c)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun a => Fin.ext (by
    match a with
    | ⟨0, _⟩ => exact lhs_rows_0 _ _
    | ⟨1, _⟩ => exact (lhs_rows_1 _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun a => Fin.ext (by
    match a with
    | ⟨0, _⟩ => exact rhs_rows_0 _ _
    | ⟨1, _⟩ => exact (rhs_rows_1 _ _).trans hk)
  rw [el, er]

/-- Columns against columns: the first operand's row axis is the contracted one … -/
theorem lhs_cols_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
/-- … its column axis is read from the entry's first coordinate … -/
theorem lhs_cols_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
/-- … the second operand's row axis is the contracted one … -/
theorem rhs_cols_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
/-- … and its column axis is read from the entry's second coordinate. -/
theorem rhs_cols_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The transpose of a [512, 1024] matrix times a [512, 1024] matrix, into a zero accumulator: entry
    (d, e) is the sum over the 512 rows r of A[r, d] * B[r, e]. -/
theorem mm_cols {φ₁ φ₂ : FTy} (A : FVec Ideal S512x1024 φ₁) (B : FVec Ideal S512x1024 φ₂) (d e : Fin 1024) :
    matmul dot_S512x1024_S512x1024_S1024x1024_0_0_1_1_n_n none A B (constant S1024x1024 .f32 0x00000000#32) (ix2 d e)
      = ∑ r : Fin 512, A (ix2 r d) * B (ix2 r e) := by
  refine (Ideal.matmul_constant_zero_apply dot_S512x1024_S512x1024_S1024x1024_0_0_1_1_n_n none A B (ix2 d e)).trans ?_
  rw [← Equiv.sum_comp (contrEquiv1 dot_S512x1024_S512x1024_S1024x1024_0_0_1_1_n_n 512 rfl rfl).symm]
  refine Finset.sum_congr rfl fun r _ => ?_
  have hr := contrEquiv1_symm_val dot_S512x1024_S512x1024_S1024x1024_0_0_1_1_n_n 512 rfl rfl r
  have el : dot_S512x1024_S512x1024_S1024x1024_0_0_1_1_n_n.lhsIdx (ix2 d e) ((contrEquiv1 dot_S512x1024_S512x1024_S1024x1024_0_0_1_1_n_n 512 rfl rfl).symm r) = ix2 r d := funext fun a => Fin.ext (by
    match a with
    | ⟨0, _⟩ => exact (lhs_cols_0 _ _).trans hr
    | ⟨1, _⟩ => exact lhs_cols_1 _ _)
  have er : dot_S512x1024_S512x1024_S1024x1024_0_0_1_1_n_n.rhsIdx (ix2 d e) ((contrEquiv1 dot_S512x1024_S512x1024_S1024x1024_0_0_1_1_n_n 512 rfl rfl).symm r) = ix2 r e := funext fun a => Fin.ext (by
    match a with
    | ⟨0, _⟩ => exact (rhs_cols_0 _ _).trans hr
    | ⟨1, _⟩ => exact rhs_cols_1 _ _)
  rw [el, er]

/-! ## The accumulation payload -/

/-- One projection of the tile: the tile times the transposed weight matrix, plus the bias row; entry (r, c). -/
theorem proj_apply (x : FVec Ideal S1x512x1024 .f32) (w : FVec Ideal S1024x1024 .bf16) (b : FVec Ideal S1024 .f32)
    (r : Fin 512) (c : Fin 1024) :
    addf (matmul dot_S512x1024_S1024x1024_S512x1024_1_1_0_0_n_n none
          (truncf .bf16 (shapeCast S512x1024 x Facts₀.shapeCasts_S1x512x1024_S512x1024) Facts₀.bitsLt_bf16_f32)
          (shapeCast S1024x1024 w Facts₀.shapeCasts_S1024x1024_S1024x1024)
          (constant S512x1024 .f32 0x00000000#32))
        (broadcastTo S512x1024 (shapeCast S1x1024 b Facts₀.shapeCasts_S1024_S1x1024) Facts₀.broadcasts_S1x1024_S512x1024)
        (ix2 r c)
      = (∑ k : Fin 1024, x (ix3 0 r k) * w (ix2 c k)) + b (ix1 c) := by
  refine (addf_apply _ _ _).trans ?_
  refine congrArg₂ (· + ·) ?_ ?_
  · refine (mm_rows _ _ r c).trans ?_
    refine Finset.sum_congr rfl fun k _ => ?_
    refine congrArg₂ (· * ·) ?_ ?_
    · refine (truncf_apply (φ := .f32) (ψ := .bf16) _ _ _).trans ?_
      exact shapeCast_1ab_ab_apply x _ r k
    · exact congrFun (shapeCast_self w _) (ix2 c k)
  · refine (broadcastTo_1b_ab_apply _ _ r c).trans ?_
    exact shapeCast_a_1a_apply b _ 0 c

/-- The accumulation payload at entry (d, e): the accumulator's entry plus, summed over the tile's 512 rows,
    the product of the first projection at (r, d) and the second projection at (r, e). -/
theorem pay_acc (v3 : Vec Ideal S1x512x1024 .f32) (v6 v8 : Vec Ideal S1024x1024 .bf16) (v10 v11 : Vec Ideal S1024 .f32)
    (v23 : Vec Ideal S1024x1024 .f32) (d e : Fin 1024) :
    k0_pay2 (F := Ideal) v3 v6 v8 v10 v11 v23 (ix2 d e)
      = v23 (ix2 d e) + ∑ r : Fin 512, ((∑ k : Fin 1024, v3 (ix3 0 r k) * v6 (ix2 d k)) + v10 (ix1 d))
          * ((∑ k : Fin 1024, v3 (ix3 0 r k) * v8 (ix2 e k)) + v11 (ix1 e)) := by
  unfold k0_pay2
  rw [shapeCast_self]
  refine (addf_apply _ _ _).trans ?_
  refine congrArg (v23 (ix2 d e) + ·) ?_
  refine (mm_cols _ _ d e).trans ?_
  refine Finset.sum_congr rfl fun r _ => ?_
  refine congrArg₂ (· * ·) ?_ ?_
  · refine (truncf_apply (φ := .f32) (ψ := .bf16) _ _ _).trans ?_
    exact proj_apply v3 v6 v10 r d
  · refine (truncf_apply (φ := .f32) (ψ := .bf16) _ _ _).trans ?_
    exact proj_apply v3 v8 v11 r e

/-- The scaled payload: entry (0, d, e) is the accumulator's entry (d, e) times the fixed word. -/
theorem pay_scale (v31 : Vec Ideal S1024x1024 .f32) (d e : Fin 1024) :
    k0_pay3 (F := Ideal) v31 (ix3 0 d e) = v31 (ix2 d e) * Ideal.ofBits .f32 0x3D000000#32 := by
  unfold k0_pay3
  refine (shapeCast_ab_1ab_apply _ _ 0 d e).trans ?_
  rfl

end Cert.KernelIdeal.Hand

end
-- ==== Proof.KVBlocks.lean ====
/-
  Region 0's window blocks, read at an entry.

  A grid point is `t = 8 b + s`: batch `b = t / 8`, tile `s = t % 8` of 512 rows. The block of the input `x` at
  `t` is rows `512 s … 512 s + 511` of batch `b`: entry `(0, r, k)` of the block is entry `(b, 512 s + r, k)` of
  the array (a block's array coordinate is block index × block size + the coordinate inside the block). The two
  weight matrices and the two biases are whole-array blocks at block index zero, so a block entry is the array's
  entry at the same index. The output block at `t` is the `[1024, 1024]` matrix of batch `b`; it is written back at
  the last tile of each batch, and the four written-back blocks (points `8 b + 7`) cover the output array.
-/
import proofs.«141280_j21363167330926_2_alg».proof.Proof.KVShared
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## A point's batch and rows -/

/-- The batch of point `t = 8 b + s`. -/
def batchOf (t : Fin cfg0.N) : Fin 4 := ⟨t.val / 8, by have := t.isLt; have hN : cfg0.N = 32 := N_0; omega⟩
theorem batchOf_val (t : Fin cfg0.N) : (batchOf t).val = t.val / 8 := rfl

/-- Row `r` of the tile of point `t = 8 b + s` is row `512 s + r` of the sequence axis. -/
def tileRow (t : Fin cfg0.N) (r : Fin 512) : Fin 4096 := ⟨512 * (t.val % 8) + r.val, by omega⟩
theorem tileRow_val (t : Fin cfg0.N) (r : Fin 512) : (tileRow t r).val = 512 * (t.val % 8) + r.val := rfl

/-! ## The block indices over the grid -/

theorem index0_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index0_1 : ∀ t : Fin cfg0.N, win0_1.index t 0 = 0 ∧ win0_1.index t 1 = 0 :=
  (by decide +kernel : ∀ t : Fin grid0.N, win0_1.index t 0 = 0 ∧ win0_1.index t 1 = 0)
theorem index0_2 : ∀ t : Fin cfg0.N, win0_2.index t 0 = 0 :=
  (by decide +kernel : ∀ t : Fin grid0.N, win0_2.index t 0 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 :=
  (by decide +kernel : ∀ t : Fin grid0.N, win0_4.index t 0 = 0)
theorem index0_5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

/-! ## The input blocks -/

/-- The `x` block at point `t`, entry `y`, is the array's entry at batch `t / 8`, row `512 (t % 8) + y 1`. -/
theorem iblk0_x_at (c : Dev nD) (t : Fin cfg0.N) (y : S1x512x1024.Idx) (k : S4x4096x1024.Idx)
    (h0 : (k 0).val = t.val / 8) (h1 : (k 1).val = 512 * (t.val % 8) + (y 1).val) (h2 : (k 2).val = (y 2).val) :
    (iblk0 V c 0 t : Vec F S1x512x1024 .f32) y = (V c main_arg0 : S4x4096x1024.Idx → Elt F .f32) k := by
  have hi := index0_0 t
  have hy0 : (y 0).val < 1 := (y 0).isLt
  unfold iblk0
  rw [View.read_apply]
  show V c main_arg0 _ = V c main_arg0 _
  refine congrArg _ ?_
  funext a
  apply Fin.ext
  match a with
  | ⟨0, _⟩ => show win0_0.index t 0 * 1 + 1 * (y 0).val = (k 0).val; rw [hi.1, h0]; omega
  | ⟨1, _⟩ => show win0_0.index t 1 * 512 + 1 * (y 1).val = (k 1).val; rw [hi.2.1, h1]; omega
  | ⟨2, _⟩ => show win0_0.index t 2 * 1024 + 1 * (y 2).val = (k 2).val; rw [hi.2.2, h2]; omega

theorem iblk0_x (c : Dev nD) (t : Fin cfg0.N) (r : Fin 512) (k : Fin 1024) :
    (iblk0 V c 0 t : Vec F S1x512x1024 .f32) (ix3 0 r k)
      = (V c main_arg0 : S4x4096x1024.Idx → Elt F .f32) (ix3 (batchOf t) (tileRow t r) k) :=
  iblk0_x_at V c t (ix3 0 r k) (ix3 (batchOf t) (tileRow t r) k) rfl rfl rfl

/-- The first weight matrix's block is the whole array. -/
theorem iblk0_wk_at (c : Dev nD) (t : Fin cfg0.N) (y : S1024x1024.Idx) :
    (iblk0 V c 1 t : Vec F S1024x1024 .bf16) y = (V c main_v1 : S1024x1024.Idx → Elt F .bf16) y := by
  have hi := index0_1 t
  unfold iblk0
  rw [View.read_apply]
  show V c main_v1 _ = V c main_v1 _
  refine congrArg _ ?_
  funext a
  apply Fin.ext
  match a with
  | ⟨0, _⟩ => show win0_1.index t 0 * 1024 + 1 * (y 0).val = (y 0).val; rw [hi.1]; omega
  | ⟨1, _⟩ => show win0_1.index t 1 * 1024 + 1 * (y 1).val = (y 1).val; rw [hi.2]; omega

theorem iblk0_wk (c : Dev nD) (t : Fin cfg0.N) (d k : Fin 1024) :
    (iblk0 V c 1 t : Vec F S1024x1024 .bf16) (ix2 d k) = (V c main_v1 : S1024x1024.Idx → Elt F .bf16) (ix2 d k) :=
  iblk0_wk_at V c t (ix2 d k)

/-- The first bias's block is the whole array. -/
theorem iblk0_bk_at (c : Dev nD) (t : Fin cfg0.N) (y : S1024.Idx) :
    (iblk0 V c 2 t : Vec F S1024 .f32) y = (V c main_arg4 : S1024.Idx → Elt F .f32) y := by
  have hi := index0_2 t
  unfold iblk0
  rw [View.read_apply]
  show V c main_arg4 _ = V c main_arg4 _
  refine congrArg _ ?_
  funext a
  apply Fin.ext
  match a with
  | ⟨0, _⟩ => show win0_2.index t 0 * 1024 + 1 * (y 0).val = (y 0).val; rw [hi]; omega

theorem iblk0_bk (c : Dev nD) (t : Fin cfg0.N) (d : Fin 1024) :
    (iblk0 V c 2 t : Vec F S1024 .f32) (ix1 d) = (V c main_arg4 : S1024.Idx → Elt F .f32) (ix1 d) :=
  iblk0_bk_at V c t (ix1 d)

/-- The second weight matrix's block is the whole array. -/
theorem iblk0_wv_at (c : Dev nD) (t : Fin cfg0.N) (y : S1024x1024.Idx) :
    (iblk0 V c 3 t : Vec F S1024x1024 .bf16) y = (V c main_v2 : S1024x1024.Idx → Elt F .bf16) y := by
  have hi := index0_3 t
  unfold iblk0
  rw [View.read_apply]
  show V c main_v2 _ = V c main_v2 _
  refine congrArg _ ?_
  funext a
  apply Fin.ext
  match a with
  | ⟨0, _⟩ => show win0_3.index t 0 * 1024 + 1 * (y 0).val = (y 0).val; rw [hi.1]; omega
  | ⟨1, _⟩ => show win0_3.index t 1 * 1024 + 1 * (y 1).val = (y 1).val; rw [hi.2]; omega

theorem iblk0_wv (c : Dev nD) (t : Fin cfg0.N) (d k : Fin 1024) :
    (iblk0 V c 3 t : Vec F S1024x1024 .bf16) (ix2 d k) = (V c main_v2 : S1024x1024.Idx → Elt F .bf16) (ix2 d k) :=
  iblk0_wv_at V c t (ix2 d k)

/-- The second bias's block is the whole array. -/
theorem iblk0_bv_at (c : Dev nD) (t : Fin cfg0.N) (y : S1024.Idx) :
    (iblk0 V c 4 t : Vec F S1024 .f32) y = (V c main_arg6 : S1024.Idx → Elt F .f32) y := by
  have hi := index0_4 t
  unfold iblk0
  rw [View.read_apply]
  show V c main_arg6 _ = V c main_arg6 _
  refine congrArg _ ?_
  funext a
  apply Fin.ext
  match a with
  | ⟨0, _⟩ => show win0_4.index t 0 * 1024 + 1 * (y 0).val = (y 0).val; rw [hi]; omega

theorem iblk0_bv (c : Dev nD) (t : Fin cfg0.N) (d : Fin 1024) :
    (iblk0 V c 4 t : Vec F S1024 .f32) (ix1 d) = (V c main_arg6 : S1024.Idx → Elt F .f32) (ix1 d) :=
  iblk0_bv_at V c t (ix1 d)

/-! ## The output block -/

/-- The output block at point `t`, read off an array `G`, is the matrix of batch `t / 8`. -/
theorem outBlk_read_at (c : Dev nD) (G : Buf (Elt F) ((cfg0.win 5).arr.view.loc (c.tc : Thread nD τ)))
    (t : Fin cfg0.N) (y : S1x1024x1024.Idx) (k : S4x1024x1024.Idx)
    (h0 : (k 0).val = t.val / 8) (h1 : (k 1).val = (y 1).val) (h2 : (k 2).val = (y 2).val) :
    (((cfg0.win 5).blk t).view.read (Elt F) G : Vec F S1x1024x1024 .bf16) y
      = (G : S4x1024x1024.Idx → Elt F .bf16) k := by
  have hi := index0_5 t
  have hy0 : (y 0).val < 1 := (y 0).isLt
  rw [View.read_apply]
  show G _ = G _
  refine congrArg _ ?_
  funext a
  apply Fin.ext
  match a with
  | ⟨0, _⟩ => show win0_5.index t 0 * 1 + 1 * (y 0).val = (k 0).val; rw [hi.1, h0]; omega
  | ⟨1, _⟩ => show win0_5.index t 1 * 1024 + 1 * (y 1).val = (k 1).val; rw [hi.2.1, h1]; omega
  | ⟨2, _⟩ => show win0_5.index t 2 * 1024 + 1 * (y 2).val = (k 2).val; rw [hi.2.2, h2]; omega

theorem outBlk_read (c : Dev nD) (G : Buf (Elt F) ((cfg0.win 5).arr.view.loc (c.tc : Thread nD τ)))
    (t : Fin cfg0.N) (d e : Fin 1024) :
    (((cfg0.win 5).blk t).view.read (Elt F) G : Vec F S1x1024x1024 .bf16) (ix3 0 d e)
      = (G : S4x1024x1024.Idx → Elt F .bf16) (ix3 (batchOf t) d e) :=
  outBlk_read_at c G t (ix3 0 d e) (ix3 (batchOf t) d e) rfl rfl rfl

/-- Every entry of the output array lies in the block written back at the last tile of its batch. -/
theorem out_cover (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 4 := (i 0).isLt
  have h1 : (i 1 : Nat) < 1024 := (i 1).isLt
  have h2 : (i 2 : Nat) < 1024 := (i 2).isLt
  have hN : cfg0.N = 32 := N_0
  let t : Fin cfg0.N := ⟨8 * (i 0 : Nat) + 7, by omega⟩
  have ht : t.val = 8 * (i 0 : Nat) + 7 := rfl
  have hi := index0_5 t
  refine ⟨t, (flush0_5 t).mpr (by omega), ?_⟩
  show i ∈ ((View.whole main_v3).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [hi.1]; omega
  | ⟨1, _⟩ => show win0_5.index t 1 * 1024 ≤ (i 1 : Nat) ∧ (i 1 : Nat) < win0_5.index t 1 * 1024 + 1024
              rw [hi.2.1]; omega
  | ⟨2, _⟩ => show win0_5.index t 2 * 1024 ≤ (i 2 : Nat) ∧ (i 2 : Nat) < win0_5.index t 2 * 1024 + 1024
              rw [hi.2.2]; omega

end Cert.KernelIdeal.Hand

end
-- ==== Proof.RefSpec.lean ====
/-
  The result as one function of the seven argument arrays, and the reference computes it.

  With `x : [4, 4096, 1024]`, three weight matrices `W : [1024, 1024]` and three biases `b : [1024]`:
    `proj x W b` at `(bi, s, d)` is the linear layer `∑ k, x[bi, s, k] * W[d, k] + b[d]`;
    `kv` at `(bi, d, e)` is `(∑ s, K[bi, s, d] * V[bi, s, e]) * scale` with `K = proj x Wk bk`, `V = proj x Wv bv`
      and `scale` the f32 pattern `0x3D000000`, which denotes `1/32`;
    `E` at `(bi, s, e)` is `∑ d, Q[bi, s, d] * kv[bi, d, e]` with `Q = proj x Wq bq`.
  The reference is this function stage by stage: three `dot_general`s plus broadcast biases are the three
  projections, the batched contraction over the sequence axis times the broadcast scalar is `kv`, and the last
  batched contraction is `E`. Its scalar is `1 / sqrt 1024` computed on the extended reals: `sqrt 1024 = 32`
  exactly, and the quotient `1 / 32` is the real the pattern `0x3D000000` denotes (`scale_eq`). No sum is
  regrouped and no factor is moved across a sum: the two sides agree term by term.
-/
import proofs.«141280_j21363167330926_2_alg».proof.Proof.Gen.ReferenceIdeal.Read
import Idealize.ShloMosaic.Lib.ValueIdx
import Idealize.ShloMosaic.PureOps.Ideal.Laws

noncomputable section

namespace Cert.Spec

open Idealize.ShloMosaic Idealize.ShloMosaic.ValueIdx Cert.ReferenceIdeal Cert.ReferenceIdeal.Gen Cert.ReferenceIdeal.Read

/-! ## The specification -/

/-- The linear layer `x @ Wᵀ + b` at batch `bi`, row `s`, feature `d`. -/
def proj (x : S4x4096x1024.Idx → EReal) (W : S1024x1024.Idx → EReal) (b : S1024.Idx → EReal)
    (bi : Fin 4) (s : Fin 4096) (d : Fin 1024) : EReal :=
  (∑ k : Fin 1024, x (ix3 bi s k) * W (ix2 d k)) + b (ix1 d)

/-- `(Kᵀ V) * scale` at batch `bi`, entry `(d, e)`: the contraction runs over the 4096 rows. -/
def kv (x : S4x4096x1024.Idx → EReal) (Wk : S1024x1024.Idx → EReal) (bk : S1024.Idx → EReal)
    (Wv : S1024x1024.Idx → EReal) (bv : S1024.Idx → EReal) (bi : Fin 4) (d e : Fin 1024) : EReal :=
  (∑ s : Fin 4096, proj x Wk bk bi s d * proj x Wv bv bi s e) * Ideal.ofBits .f32 0x3D000000#32

/-- `Q (Kᵀ V * scale)` as a function of the output index. -/
def E (x : S4x4096x1024.Idx → EReal) (Wq : S1024x1024.Idx → EReal) (bq : S1024.Idx → EReal)
    (Wk : S1024x1024.Idx → EReal) (bk : S1024.Idx → EReal)
    (Wv : S1024x1024.Idx → EReal) (bv : S1024.Idx → EReal) : S4x4096x1024.Idx → EReal := fun i =>
  ∑ d : Fin 1024, proj x Wq bq (i 0) (i 1) d * kv x Wk bk Wv bv (i 0) d (i 2)

/-- `E` at an index given by its three coordinates. -/
theorem E_ix3 (x : S4x4096x1024.Idx → EReal) (Wq : S1024x1024.Idx → EReal) (bq : S1024.Idx → EReal)
    (Wk : S1024x1024.Idx → EReal) (bk : S1024.Idx → EReal)
    (Wv : S1024x1024.Idx → EReal) (bv : S1024.Idx → EReal) (b : Fin 4) (s : Fin 4096) (e : Fin 1024) :
    E x Wq bq Wk bk Wv bv (ix3 b s e) = ∑ d : Fin 1024, proj x Wq bq b s d * kv x Wk bk Wv bv b d e := rfl

/-! ## The scalar -/

/-- The pattern `0x44800000` denotes `1024`. -/
theorem ofBits_1024 : Ideal.ofBits .f32 0x44800000#32 = ((1024 : ℝ) : EReal) := by
  simp [Ideal.ofBits, Ideal.ieee, -EReal.coe_mul]; norm_num

/-- The pattern `0x3F800000` denotes `1`. -/
theorem ofBits_one : Ideal.ofBits .f32 0x3F800000#32 = ((1 : ℝ) : EReal) := by
  simp [Ideal.ofBits, Ideal.ieee, -EReal.coe_mul]; norm_num

/-- The pattern `0x3D000000` denotes `1/32`. -/
theorem ofBits_inv32 : Ideal.ofBits .f32 0x3D000000#32 = ((1 / 32 : ℝ) : EReal) := by
  simp [Ideal.ofBits, Ideal.ieee, -EReal.coe_mul]; norm_num

theorem sqrt_1024 : Real.sqrt 1024 = 32 := by
  rw [show (1024 : ℝ) = 32 ^ 2 by norm_num]
  exact Real.sqrt_sq (by norm_num)

/-- `1 / sqrt 1024` on the extended reals is the real `1/32`, the value of the pattern `0x3D000000`. -/
theorem scale_eq (j : S_.Idx) :
    val_main_v13 (F := Ideal) j = Ideal.ofBits .f32 0x3D000000#32 := by
  rw [val_main_v13_apply, val_main_v12_apply, val_main_cst_apply, val_main_cst_0_apply]
  simp only [Ideal.hostDivf_def, Ideal.hostUnary_sqrt_def, Ideal.ofBits_def]
  rw [ofBits_1024, ofBits_one, ofBits_inv32, Ideal.sqrt_coe, if_neg (by norm_num), sqrt_1024,
    Ideal.div_coe (by norm_num : (32 : ℝ) ≠ 0), ← EReal.coe_mul, one_mul]

/-! ## The reference, stage by stage -/

theorem lidx_v0 (b : Fin 4) (s : Fin 4096) (d k : Fin 1024) : lidx_main_v0 (ix3 b s d) k = ix3 b s k :=
  funext fun a => Fin.ext (by match a with | ⟨0, _⟩ => rfl | ⟨1, _⟩ => rfl | ⟨2, _⟩ => rfl)
theorem ridx_v0 (b : Fin 4) (s : Fin 4096) (d k : Fin 1024) : ridx_main_v0 (ix3 b s d) k = ix2 d k :=
  funext fun a => Fin.ext (by match a with | ⟨0, _⟩ => rfl | ⟨1, _⟩ => rfl)
theorem idx_v1v2 (b : Fin 4) (s : Fin 4096) (d : Fin 1024) : idx_main_v1 (idx_main_v2 (ix3 b s d)) = ix1 d :=
  funext fun a => Fin.ext (by match a with | ⟨0, _⟩ => rfl)
theorem lidx_v4 (b : Fin 4) (s : Fin 4096) (d k : Fin 1024) : lidx_main_v4 (ix3 b s d) k = ix3 b s k :=
  funext fun a => Fin.ext (by match a with | ⟨0, _⟩ => rfl | ⟨1, _⟩ => rfl | ⟨2, _⟩ => rfl)
theorem ridx_v4 (b : Fin 4) (s : Fin 4096) (d k : Fin 1024) : ridx_main_v4 (ix3 b s d) k = ix2 d k :=
  funext fun a => Fin.ext (by match a with | ⟨0, _⟩ => rfl | ⟨1, _⟩ => rfl)
theorem idx_v5v6 (b : Fin 4) (s : Fin 4096) (d : Fin 1024) : idx_main_v5 (idx_main_v6 (ix3 b s d)) = ix1 d :=
  funext fun a => Fin.ext (by match a with | ⟨0, _⟩ => rfl)
theorem lidx_v8 (b : Fin 4) (s : Fin 4096) (d k : Fin 1024) : lidx_main_v8 (ix3 b s d) k = ix3 b s k :=
  funext fun a => Fin.ext (by match a with | ⟨0, _⟩ => rfl | ⟨1, _⟩ => rfl | ⟨2, _⟩ => rfl)
theorem ridx_v8 (b : Fin 4) (s : Fin 4096) (d k : Fin 1024) : ridx_main_v8 (ix3 b s d) k = ix2 d k :=
  funext fun a => Fin.ext (by match a with | ⟨0, _⟩ => rfl | ⟨1, _⟩ => rfl)
theorem idx_v9v10 (b : Fin 4) (s : Fin 4096) (d : Fin 1024) : idx_main_v9 (idx_main_v10 (ix3 b s d)) = ix1 d :=
  funext fun a => Fin.ext (by match a with | ⟨0, _⟩ => rfl)

/-- The first projection of the reference (`dot_general` plus the twice-broadcast bias) is `proj`. -/
theorem v3_eq (x0 : FVec Ideal S4x4096x1024 .f32) (x1 : FVec Ideal S1024x1024 .f32) (x2 : FVec Ideal S1024 .f32)
    (b : Fin 4) (s : Fin 4096) (d : Fin 1024) :
    val_main_v3 (F := Ideal) x0 x1 x2 (ix3 b s d) = proj x0 x1 x2 b s d := by
  rw [val_main_v3_apply, val_main_v0_apply, val_main_v2_apply, val_main_v1_apply]
  simp only [lidx_v0, ridx_v0, idx_v1v2, Ideal.addf_def]
  rfl

/-- The second projection (the keys). -/
theorem v7_eq (x0 : FVec Ideal S4x4096x1024 .f32) (x3 : FVec Ideal S1024x1024 .f32) (x4 : FVec Ideal S1024 .f32)
    (b : Fin 4) (s : Fin 4096) (d : Fin 1024) :
    val_main_v7 (F := Ideal) x0 x3 x4 (ix3 b s d) = proj x0 x3 x4 b s d := by
  rw [val_main_v7_apply, val_main_v4_apply, val_main_v6_apply, val_main_v5_apply]
  simp only [lidx_v4, ridx_v4, idx_v5v6, Ideal.addf_def]
  rfl

/-- The third projection (the values). -/
theorem v11_eq (x0 : FVec Ideal S4x4096x1024 .f32) (x5 : FVec Ideal S1024x1024 .f32) (x6 : FVec Ideal S1024 .f32)
    (b : Fin 4) (s : Fin 4096) (d : Fin 1024) :
    val_main_v11 (F := Ideal) x0 x5 x6 (ix3 b s d) = proj x0 x5 x6 b s d := by
  rw [val_main_v11_apply, val_main_v8_apply, val_main_v10_apply, val_main_v9_apply]
  simp only [lidx_v8, ridx_v8, idx_v9v10, Ideal.addf_def]
  rfl

theorem lidx_v14 (b : Fin 4) (d e : Fin 1024) (s : Fin 4096) : lidx_main_v14 (ix3 b d e) s = ix3 b s d :=
  funext fun a => Fin.ext (by match a with | ⟨0, _⟩ => rfl | ⟨1, _⟩ => rfl | ⟨2, _⟩ => rfl)
theorem ridx_v14 (b : Fin 4) (d e : Fin 1024) (s : Fin 4096) : ridx_main_v14 (ix3 b d e) s = ix3 b s e :=
  funext fun a => Fin.ext (by match a with | ⟨0, _⟩ => rfl | ⟨1, _⟩ => rfl | ⟨2, _⟩ => rfl)

/-- The contraction over the rows, times the broadcast scalar, is `kv`. -/
theorem v16_eq (x0 : FVec Ideal S4x4096x1024 .f32) (x3 : FVec Ideal S1024x1024 .f32) (x4 : FVec Ideal S1024 .f32)
    (x5 : FVec Ideal S1024x1024 .f32) (x6 : FVec Ideal S1024 .f32) (b : Fin 4) (d e : Fin 1024) :
    val_main_v16 (F := Ideal) x0 x3 x4 x5 x6 (ix3 b d e) = kv x0 x3 x4 x5 x6 b d e := by
  rw [val_main_v16_apply, val_main_v14_apply, val_main_v15_apply, scale_eq]
  simp only [lidx_v14, ridx_v14, v7_eq, v11_eq, Ideal.mulf_def]
  rfl

theorem lidx_v17 (b : Fin 4) (s : Fin 4096) (e k : Fin 1024) : lidx_main_v17 (ix3 b s e) k = ix3 b s k :=
  funext fun a => Fin.ext (by match a with | ⟨0, _⟩ => rfl | ⟨1, _⟩ => rfl | ⟨2, _⟩ => rfl)
theorem ridx_v17 (b : Fin 4) (s : Fin 4096) (e k : Fin 1024) : ridx_main_v17 (ix3 b s e) k = ix3 b k e :=
  funext fun a => Fin.ext (by match a with | ⟨0, _⟩ => rfl | ⟨1, _⟩ => rfl | ⟨2, _⟩ => rfl)

/-- The reference's last stage is `E` of its seven arguments. -/
theorem ref_eq (a0 : FVec Ideal S4x4096x1024 .f32) (a1 : FVec Ideal S1024x1024 .f32) (a2 : FVec Ideal S1024 .f32)
    (a3 : FVec Ideal S1024x1024 .f32) (a4 : FVec Ideal S1024 .f32)
    (a5 : FVec Ideal S1024x1024 .f32) (a6 : FVec Ideal S1024 .f32) :
    val_main_v17 (F := Ideal) a0 a1 a2 a3 a4 a5 a6 = E a0 a1 a2 a3 a4 a5 a6 := by
  funext i
  obtain ⟨b, s, e, rfl⟩ : ∃ (b : Fin 4) (s : Fin 4096) (e : Fin 1024), i = ix3 b s e := ⟨i 0, i 1, i 2, eq_ix3 i⟩
  rw [val_main_v17_apply, E_ix3]
  simp only [lidx_v17, ridx_v17, v3_eq, v16_eq]

/-- The same statement for the composed term of the seven arguments (the reference's run states its result in
    this form): it is the last stage, hence `E`. -/
theorem ref_term_eq (a0 : FVec Ideal S4x4096x1024 .f32) (a1 : FVec Ideal S1024x1024 .f32) (a2 : FVec Ideal S1024 .f32)
    (a3 : FVec Ideal S1024x1024 .f32) (a4 : FVec Ideal S1024 .f32)
    (a5 : FVec Ideal S1024x1024 .f32) (a6 : FVec Ideal S1024 .f32) :
    Host.dotGeneral (F := Ideal) dot_S4x4096x1024_S4x1024x1024_S4x4096x1024_2_1_1_2_0_0 none (addf (Host.dotGeneral dot_S4x4096x1024_S1024x1024_S4x4096x1024_2_1_01_0_n_n none (a0) (a1)) (broadcastInDim S4x4096x1024 ![0, 1, 2] bcast_S1x1x1024_S4x4096x1024_0_1_2 (broadcastInDim S1x1x1024 ![2] bcast_S1024_S1x1x1024_2 (a2)))) (mulf (Host.dotGeneral dot_S4x4096x1024_S4x4096x1024_S4x1024x1024_1_1_2_2_0_0 none (addf (Host.dotGeneral dot_S4x4096x1024_S1024x1024_S4x4096x1024_2_1_01_0_n_n none (a0) (a3)) (broadcastInDim S4x4096x1024 ![0, 1, 2] bcast_S1x1x1024_S4x4096x1024_0_1_2 (broadcastInDim S1x1x1024 ![2] bcast_S1024_S1x1x1024_2 (a4)))) (addf (Host.dotGeneral dot_S4x4096x1024_S1024x1024_S4x4096x1024_2_1_01_0_n_n none (a0) (a5)) (broadcastInDim S4x4096x1024 ![0, 1, 2] bcast_S1x1x1024_S4x4096x1024_0_1_2 (broadcastInDim S1x1x1024 ![2] bcast_S1024_S1x1x1024_2 (a6))))) (broadcastInDim S4x1024x1024 ![] bcast_S_S4x1024x1024 (Host.divf (constant S_ .f32 0x3F800000#32) (Host.sqrt (constant S_ .f32 0x44800000#32)))))
      = E a0 a1 a2 a3 a4 a5 a6 :=
  (val_main_v17_eq (F := Ideal) a0 a1 a2 a3 a4 a5 a6).trans (ref_eq a0 a1 a2 a3 a4 a5 a6)

end Cert.Spec

end
-- ==== Proof.LibTileSum.lean ====
/-
  Summing a long axis tile by tile.

  An axis of length `T * R` is cut into `T` consecutive tiles of `R` rows; row `r` of tile `j` is row
  `R * j + r` of the axis. In any additive commutative monoid the sum over the whole axis is the sum over the tiles
  of each tile's sum (`sum_tiles`). An accumulator that starts at zero and adds one tile's sum per step
  (`tileAcc`: after the first step it holds `0 + ` the first tile's sum) therefore holds, after `n` steps, the sum
  of the first `n` tiles (`tileAcc_eq`), and after all `T` steps the sum over the whole axis (`tileAcc_all`;
  `tileAcc_512_8` is the instance of 8 tiles of 512 rows, an axis of length 4096). Only commutativity and
  associativity of `+` are used, so the statements hold on the extended reals with their infinities.
-/
import Mathlib.Algebra.BigOperators.Fin
import Mathlib.Algebra.BigOperators.Intervals

namespace Cert.LibTileSum

open scoped BigOperators

variable {M : Type*} [AddCommMonoid M]

/-- The sum over an axis of `T * R` rows is the sum over its `T` tiles of the sum over each tile's `R` rows. -/
theorem sum_tiles (T R : ℕ) (g : ℕ → M) :
    (∑ s : Fin (T * R), g s.val) = ∑ j ∈ Finset.range T, ∑ r : Fin R, g (R * j + r.val) := by
  rw [Fin.sum_univ_eq_sum_range (fun n => g n) (T * R)]
  induction T with
  | zero => simp
  | succ T ih =>
    rw [Finset.sum_range_succ, ← ih, Nat.succ_mul, Finset.sum_range_add,
      Fin.sum_univ_eq_sum_range (fun r => g (R * T + r)) R, Nat.mul_comm R T]

/-- The accumulator after `n` tiles: zero, then one tile's sum added per step. -/
def tileAcc (R : ℕ) (g : ℕ → M) : ℕ → M
  | 0 => 0
  | n + 1 => tileAcc R g n + ∑ r : Fin R, g (R * n + r.val)

@[simp] theorem tileAcc_zero (R : ℕ) (g : ℕ → M) : tileAcc R g 0 = 0 := rfl

theorem tileAcc_succ (R : ℕ) (g : ℕ → M) (n : ℕ) :
    tileAcc R g (n + 1) = tileAcc R g n + ∑ r : Fin R, g (R * n + r.val) := rfl

/-- After `n` steps the accumulator holds the sum of the first `n` tiles. -/
theorem tileAcc_eq (R : ℕ) (g : ℕ → M) (n : ℕ) :
    tileAcc R g n = ∑ j ∈ Finset.range n, ∑ r : Fin R, g (R * j + r.val) := by
  induction n with
  | zero => simp
  | succ n ih => rw [tileAcc_succ, ih, Finset.sum_range_succ]

/-- After all `T` steps the accumulator holds the sum over the whole axis. -/
theorem tileAcc_all (T R : ℕ) (g : ℕ → M) : tileAcc R g T = ∑ s : Fin (T * R), g s.val := by
  rw [tileAcc_eq, sum_tiles]

/-- Eight tiles of 512 rows: the accumulator ends at the sum over the axis of length 4096. -/
theorem tileAcc_512_8 (g : ℕ → M) : tileAcc 512 g 8 = ∑ s : Fin 4096, g s.val :=
  tileAcc_all 8 512 g

end Cert.LibTileSum
-- ==== Proof.KernelSpec.lean ====
/-
  The two-pass arrangement of the same function.

  First pass: for each batch `b` the `[1024, 1024]` matrix `Kᵀ V` is accumulated over the 4096 rows in 8 tiles of
  512 rows — the accumulator starts at zero and each tile adds `∑ r, K[b, 512 s + r, d] * V[b, 512 s + r, e]`
  (`accTile`) — and after the last tile it is multiplied by the scale (`G0`). Second pass: every output row is the
  query row times that matrix (`G1`). Summing tile by tile is summing over the whole axis (additive commutative
  monoid: only associativity and commutativity of `+`), so `G0` is `kv` and `G1` of `G0` is `E`.
-/
import proofs.«141280_j21363167330926_2_alg».proof.Proof.RefSpec
import proofs.«141280_j21363167330926_2_alg».proof.Proof.LibTileSum

noncomputable section

namespace Cert.Spec

open Idealize.ShloMosaic Idealize.ShloMosaic.ValueIdx Cert.ReferenceIdeal

/-- The shape of the intermediate array `Kᵀ V * scale`: one `[1024, 1024]` matrix per batch. -/
abbrev SKV : Shape := ⟨3, ![4, 1024, 1024]⟩

/-- Row `n` of the sequence axis contributes `K[b, n, d] * V[b, n, e]` (zero past the end of the axis). -/
def prodAt (x : S4x4096x1024.Idx → EReal) (Wk : S1024x1024.Idx → EReal) (bk : S1024.Idx → EReal)
    (Wv : S1024x1024.Idx → EReal) (bv : S1024.Idx → EReal) (b : Fin 4) (d e : Fin 1024) : ℕ → EReal := fun n =>
  if h : n < 4096 then proj x Wk bk b ⟨n, h⟩ d * proj x Wv bv b ⟨n, h⟩ e else 0

/-- The accumulator of entry `(d, e)` of batch `b` after `n` tiles of 512 rows. -/
def accTile (x : S4x4096x1024.Idx → EReal) (Wk : S1024x1024.Idx → EReal) (bk : S1024.Idx → EReal)
    (Wv : S1024x1024.Idx → EReal) (bv : S1024.Idx → EReal) (b : Fin 4) (d e : Fin 1024) (n : ℕ) : EReal :=
  Cert.LibTileSum.tileAcc 512 (prodAt x Wk bk Wv bv b d e) n

/-- Row `r` of tile `s` is row `512 s + r` of the sequence axis. -/
def rowOf (s : ℕ) (hs : s < 8) (r : Fin 512) : Fin 4096 := ⟨512 * s + r.val, by omega⟩

theorem rowOf_val (s : ℕ) (hs : s < 8) (r : Fin 512) : (rowOf s hs r).val = 512 * s + r.val := rfl

section
variable (x : S4x4096x1024.Idx → EReal) (Wq : S1024x1024.Idx → EReal) (bq : S1024.Idx → EReal)
  (Wk : S1024x1024.Idx → EReal) (bk : S1024.Idx → EReal) (Wv : S1024x1024.Idx → EReal) (bv : S1024.Idx → EReal)

/-- Before the first tile the accumulator is zero. -/
theorem accTile_zero (b : Fin 4) (d e : Fin 1024) : accTile x Wk bk Wv bv b d e 0 = 0 := rfl

/-- Tile `s` adds the sum over its 512 rows. -/
theorem accTile_succ (b : Fin 4) (d e : Fin 1024) (s : ℕ) (hs : s < 8) :
    accTile x Wk bk Wv bv b d e (s + 1) = accTile x Wk bk Wv bv b d e s
      + ∑ r : Fin 512, proj x Wk bk b (rowOf s hs r) d * proj x Wv bv b (rowOf s hs r) e := by
  unfold accTile
  rw [Cert.LibTileSum.tileAcc_succ]
  refine congrArg _ (Finset.sum_congr rfl fun r _ => ?_)
  unfold prodAt
  exact dif_pos (rowOf s hs r).isLt

/-- The same step with the row written out as `512 * s + r`. -/
theorem accTile_succ' (b : Fin 4) (d e : Fin 1024) (s : ℕ) (hs : s < 8) :
    accTile x Wk bk Wv bv b d e (s + 1) = accTile x Wk bk Wv bv b d e s
      + ∑ r : Fin 512, proj x Wk bk b ⟨512 * s + r.val, by omega⟩ d * proj x Wv bv b ⟨512 * s + r.val, by omega⟩ e :=
  accTile_succ x Wk bk Wv bv b d e s hs

/-- After the eighth tile the accumulator holds the sum over all 4096 rows. -/
theorem accTile_eight (b : Fin 4) (d e : Fin 1024) :
    accTile x Wk bk Wv bv b d e 8 = ∑ s : Fin 4096, proj x Wk bk b s d * proj x Wv bv b s e := by
  unfold accTile
  rw [Cert.LibTileSum.tileAcc_512_8]
  refine Finset.sum_congr rfl fun s _ => ?_
  unfold prodAt
  exact dif_pos s.isLt

/-- The first pass's result: the full accumulator times the scale. -/
def G0 : SKV.Idx → EReal := fun j =>
  accTile x Wk bk Wv bv (j 0) (j 1) (j 2) 8 * Ideal.ofBits .f32 0x3D000000#32

theorem G0_ix3 (b : Fin 4) (d e : Fin 1024) :
    G0 x Wk bk Wv bv (ix3 b d e) = accTile x Wk bk Wv bv b d e 8 * Ideal.ofBits .f32 0x3D000000#32 := rfl

/-- The first pass's result is `kv`. -/
theorem G0_eq_kv (b : Fin 4) (d e : Fin 1024) : G0 x Wk bk Wv bv (ix3 b d e) = kv x Wk bk Wv bv b d e := by
  rw [G0_ix3, accTile_eight]
  rfl

/-- The second pass: the query row times the matrix `kvA` of its batch. -/
def G1 (kvA : SKV.Idx → EReal) : S4x4096x1024.Idx → EReal := fun i =>
  ∑ d : Fin 1024, proj x Wq bq (i 0) (i 1) d * kvA (ix3 (i 0) d (i 2))

theorem G1_ix3 (kvA : SKV.Idx → EReal) (b : Fin 4) (s : Fin 4096) (e : Fin 1024) :
    G1 x Wq bq kvA (ix3 b s e) = ∑ d : Fin 1024, proj x Wq bq b s d * kvA (ix3 b d e) := rfl

/-- The two passes together compute `E`. -/
theorem G1_G0 : G1 x Wq bq (G0 x Wk bk Wv bv) = E x Wq bq Wk bk Wv bv := by
  funext i
  obtain ⟨b, s, e, rfl⟩ : ∃ (b : Fin 4) (s : Fin 4096) (e : Fin 1024), i = ix3 b s e := ⟨i 0, i 1, i 2, eq_ix3 i⟩
  rw [G1_ix3, E_ix3]
  refine Finset.sum_congr rfl fun d _ => ?_
  rw [G0_eq_kv]

end

end Cert.Spec

end
-- ==== Proof.KVFinal.lean ====
/-
  The first pass's whole output array, at the ideal (extended-real) values.

  A grid point is t = 8 b + s: batch b, tile s of 512 rows.  With K = x Wkᵀ + bk and V = x Wvᵀ + bv the two
  projections of the input, one tile's step adds, to entry (d, e) of the accumulator,
      ∑ r, K[b, 512 s + r, d] * V[b, 512 s + r, e],
  the blocks of the five input windows being read off the arrays at the rows and batch the point names.  By
  induction on the position the accumulator after the body at t holds the sum over the tiles 0 … s of batch b: the
  first tile of a batch starts from the zero fill, every other tile from what the point before left, and that point
  belongs to the same batch.  At the last tile (s = 7) the sum runs over all eight tiles, the output block is that
  sum times the fixed scaling word, and it is written back as block b of the output array; the four written-back
  blocks cover the array, so the array ends holding the first pass's result.
-/
import proofs.«141280_j21363167330926_2_alg».proof.Proof.KVPieces
import proofs.«141280_j21363167330926_2_alg».proof.Proof.KVValue
import proofs.«141280_j21363167330926_2_alg».proof.Proof.KVBlocks
import proofs.«141280_j21363167330926_2_alg».proof.Proof.KernelSpec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The five arrays the region reads, as functions into the extended reals -/

/-- The input, of shape [4, 4096, 1024]. -/
abbrev arrX (c : Dev nD) : S4x4096x1024.Idx → EReal := V c main_arg0
/-- The first weight matrix, as the region finds it. -/
abbrev arrWK (c : Dev nD) : S1024x1024.Idx → EReal := V c main_v1
/-- The first bias. -/
abbrev arrBK (c : Dev nD) : S1024.Idx → EReal := V c main_arg4
/-- The second weight matrix, as the region finds it. -/
abbrev arrWV (c : Dev nD) : S1024x1024.Idx → EReal := V c main_v2
/-- The second bias. -/
abbrev arrBV (c : Dev nD) : S1024.Idx → EReal := V c main_arg6

/-! ## One tile's step -/

/-- The accumulation payload on the blocks of a grid point, entry (d, e): what the accumulator held plus the sum,
    over the tile's 512 rows, of the product of the two projections of that row of the point's batch. -/
theorem tile_step (c : Dev nD) (t : Fin cfg0.N) (xs : Vec Ideal S1024x1024 .f32) (d e : Fin 1024) :
    k0_pay2 (F := Ideal) (iblk0 V c 0 t) (iblk0 V c 1 t) (iblk0 V c 3 t) (iblk0 V c 2 t) (iblk0 V c 4 t) xs (ix2 d e)
      = xs (ix2 d e) + ∑ r : Fin 512, Cert.Spec.proj (arrX V c) (arrWK V c) (arrBK V c) (batchOf t) (tileRow t r) d
          * Cert.Spec.proj (arrX V c) (arrWV V c) (arrBV V c) (batchOf t) (tileRow t r) e := by
  refine (pay_acc (iblk0 V c 0 t) (iblk0 V c 1 t) (iblk0 V c 3 t) (iblk0 V c 2 t) (iblk0 V c 4 t) xs d e).trans ?_
  refine congrArg (xs (ix2 d e) + ·) (Finset.sum_congr rfl fun r _ => ?_)
  refine congrArg₂ (· * ·) ?_ ?_
  · exact congrArg₂ (· + ·) (Finset.sum_congr rfl fun k _ => congrArg₂ (· * ·) (iblk0_x V c t r k) (iblk0_wk V c t d k)) (iblk0_bk V c t d)
  · exact congrArg₂ (· + ·) (Finset.sum_congr rfl fun k _ => congrArg₂ (· * ·) (iblk0_x V c t r k) (iblk0_wv V c t e k)) (iblk0_bv V c t e)

/-- So if the accumulator held the sum over the tiles before this one, the payload holds the sum up to and
    including it. -/
theorem acc_step (c : Dev nD) (t : Fin cfg0.N) (xs : Vec Ideal S1024x1024 .f32) (d e : Fin 1024)
    (h : xs (ix2 d e) = Cert.Spec.accTile (arrX V c) (arrWK V c) (arrBK V c) (arrWV V c) (arrBV V c) (batchOf t) d e (t.val % 8)) :
    k0_pay2 (F := Ideal) (iblk0 V c 0 t) (iblk0 V c 1 t) (iblk0 V c 3 t) (iblk0 V c 2 t) (iblk0 V c 4 t) xs (ix2 d e)
      = Cert.Spec.accTile (arrX V c) (arrWK V c) (arrBK V c) (arrWV V c) (arrBV V c) (batchOf t) d e (t.val % 8 + 1) := by
  refine (tile_step V c t xs d e).trans ?_
  rw [h, Cert.Spec.accTile_succ (arrX V c) (arrWK V c) (arrBK V c) (arrWV V c) (arrBV V c) (batchOf t) d e (t.val % 8) (Nat.mod_lt _ (by decide))]
  rfl

/-! ## The accumulator after every point -/

/-- At the first tile of a batch the step runs over the zero fill: the accumulator holds the first tile's sum. -/
theorem acc_first (c : Dev nD) (t : Fin cfg0.N) (h0 : t.val % 8 = 0) (d e : Fin 1024) :
    (stateAt V c t.val t.isLt).2 (ix2 d e) = Cert.Spec.accTile (arrX V c) (arrWK V c) (arrBK V c) (arrWV V c) (arrBV V c) (batchOf t) d e (t.val % 8 + 1) := by
  rw [stateAt_first V c t h0]
  dsimp only
  unfold firstAt
  refine (congrFun (accFirst_eq c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) _ _ (iblk0 V c 0 t) (iblk0 V c 1 t) (iblk0 V c 2 t) (iblk0 V c 3 t) (iblk0 V c 4 t)) (ix2 d e)).trans ?_
  refine acc_step V c t (k0_pay1 (F := Ideal)) d e ?_
  rw [h0]
  exact (pay_zero d e).trans (Cert.Spec.accTile_zero (arrX V c) (arrWK V c) (arrBK V c) (arrWV V c) (arrBV V c) (batchOf t) d e).symm

/-- At every other tile the step runs over what the point before left. -/
theorem acc_next (c : Dev nD) (t : Fin cfg0.N) (h0 : ¬t.val % 8 = 0) (d e : Fin 1024)
    (hprev : (stateAt V c (t.val - 1) (Nat.lt_of_le_of_lt (Nat.sub_le _ _) t.isLt)).2 (ix2 d e)
      = Cert.Spec.accTile (arrX V c) (arrWK V c) (arrBK V c) (arrWV V c) (arrBV V c) (batchOf t) d e (t.val % 8)) :
    (stateAt V c t.val t.isLt).2 (ix2 d e) = Cert.Spec.accTile (arrX V c) (arrWK V c) (arrBK V c) (arrWV V c) (arrBV V c) (batchOf t) d e (t.val % 8 + 1) := by
  by_cases h1 : t.val % 8 = 7
  · rw [stateAt_last V c t h1]
    dsimp only
    unfold lastAccAt
    refine (congrFun (accLast_eq c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) _ _ (iblk0 V c 0 t) (iblk0 V c 1 t) (iblk0 V c 2 t) (iblk0 V c 3 t) (iblk0 V c 4 t) (stateAt V c (t.val - 1) _).2) (ix2 d e)).trans ?_
    exact acc_step V c t (stateAt V c (t.val - 1) _).2 d e hprev
  · rw [stateAt_mid V c t h0 h1]
    dsimp only
    unfold midAt
    refine (congrFun (accMid_eq c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) _ _ (iblk0 V c 0 t) (iblk0 V c 1 t) (iblk0 V c 2 t) (iblk0 V c 3 t) (iblk0 V c 4 t) (stateAt V c (t.val - 1) _).2) (ix2 d e)).trans ?_
    exact acc_step V c t (stateAt V c (t.val - 1) _).2 d e hprev

/-- After the body at position n the accumulator holds, entry (d, e), the sum over the tiles 0 … n mod 8 of the
    batch n / 8: by induction on the position (the point before a tile that is not the first of its batch belongs
    to the same batch). -/
theorem acc_inv_nat (c : Dev nD) : ∀ (n : ℕ) (hn : n < cfg0.N) (d e : Fin 1024),
    (stateAt V c n hn).2 (ix2 d e) = Cert.Spec.accTile (arrX V c) (arrWK V c) (arrBK V c) (arrWV V c) (arrBV V c) (batchOf ⟨n, hn⟩) d e (n % 8 + 1) := by
  intro n
  induction n with
  | zero => intro hn d e; exact acc_first V c ⟨0, hn⟩ (Nat.zero_mod _) d e
  | succ n ih =>
    intro hn d e
    by_cases h0 : (n + 1) % 8 = 0
    · exact acc_first V c ⟨n + 1, hn⟩ h0 d e
    · refine acc_next V c ⟨n + 1, hn⟩ h0 d e ?_
      have hb : batchOf ⟨n, Nat.lt_of_succ_lt hn⟩ = batchOf ⟨n + 1, hn⟩ := Fin.ext (by
        show n / 8 = (n + 1) / 8
        omega)
      have hm : n % 8 + 1 = (n + 1) % 8 := by omega
      show (stateAt V c n _).2 (ix2 d e) = Cert.Spec.accTile (arrX V c) (arrWK V c) (arrBK V c) (arrWV V c) (arrBV V c) (batchOf ⟨n + 1, hn⟩) d e ((n + 1) % 8)
      rw [← hb, ← hm]
      exact ih (Nat.lt_of_succ_lt hn) d e

/-- The same at a grid point. -/
theorem acc_inv (c : Dev nD) (t : Fin cfg0.N) (d e : Fin 1024) :
    (stateAt V c t.val t.isLt).2 (ix2 d e) = Cert.Spec.accTile (arrX V c) (arrWK V c) (arrBK V c) (arrWV V c) (arrBV V c) (batchOf t) d e (t.val % 8 + 1) :=
  acc_inv_nat V c t.val t.isLt d e

/-! ## The output block at the last tile, and the whole array -/

/-- At the last tile of a batch the output block holds, entry (0, d, e), the sum over all eight tiles times the
    fixed word: the scaling payload of the accumulator as this tile's step leaves it. -/
theorem lastOut_apply (c : Dev nD) (t : Fin cfg0.N) (h7 : t.val % 8 = 7) (d e : Fin 1024) :
    lastOutAt V c t h7 (stateAt V c (t.val - 1) (Nat.lt_of_le_of_lt (Nat.sub_le _ _) t.isLt)).2 (ix3 0 d e)
      = Cert.Spec.G0 (arrX V c) (arrWK V c) (arrBK V c) (arrWV V c) (arrBV V c) (ix3 (batchOf t) d e) := by
  have hb : batchOf ⟨t.val - 1, Nat.lt_of_le_of_lt (Nat.sub_le _ _) t.isLt⟩ = batchOf t := Fin.ext (by
    show (t.val - 1) / 8 = t.val / 8
    omega)
  have hm : (t.val - 1) % 8 + 1 = t.val % 8 := by omega
  have hprev : (stateAt V c (t.val - 1) (Nat.lt_of_le_of_lt (Nat.sub_le _ _) t.isLt)).2 (ix2 d e)
      = Cert.Spec.accTile (arrX V c) (arrWK V c) (arrBK V c) (arrWV V c) (arrBV V c) (batchOf t) d e (t.val % 8) := by
    rw [← hb, ← hm]
    exact acc_inv_nat V c (t.val - 1) _ d e
  have hacc := acc_step V c t (stateAt V c (t.val - 1) (Nat.lt_of_le_of_lt (Nat.sub_le _ _) t.isLt)).2 d e hprev
  rw [h7] at hacc
  unfold lastOutAt
  refine (congrFun (outLast_eq c (grid0.coords t) (ms0_0 t) (hs0_0 t) (ms0_1 t) (hs0_1 t) (ms0_2 t) (hs0_2 t) (ms0_3 t) (hs0_3 t) (ms0_4 t) (hs0_4 t) (ms0_5 t) (hs0_5 t) accM (Memref.isWhole_whole _) _ _ (iblk0 V c 0 t) (iblk0 V c 1 t) (iblk0 V c 2 t) (iblk0 V c 3 t) (iblk0 V c 4 t) (stateAt V c (t.val - 1) _).2) (ix3 0 d e)).trans ?_
  refine (pay_scale _ d e).trans ?_
  rw [Cert.Spec.G0_ix3]
  exact congrArg (· * Ideal.ofBits .f32 0x3D000000#32) hacc

/-- So the block is the output window's block of the first pass's result array. -/
theorem lastOut_eq (c : Dev nD) (t : Fin cfg0.N) (h7 : t.val % 8 = 7) :
    (lastOutAt V c t h7 (stateAt V c (t.val - 1) (Nat.lt_of_le_of_lt (Nat.sub_le _ _) t.isLt)).2 : Vec Ideal S1x1024x1024 .bf16)
      = ((cfg0.win 5).blk t).view.read (Elt Ideal) (Cert.Spec.G0 (arrX V c) (arrWK V c) (arrBK V c) (arrWV V c) (arrBV V c)) := by
  funext y
  obtain ⟨u, d, e, rfl⟩ : ∃ (u : Fin 1) (d e : Fin 1024), y = ix3 u d e := ⟨y 0, y 1, y 2, eq_ix3 y⟩
  obtain rfl : u = 0 := Subsingleton.elim _ _
  exact (lastOut_apply V c t h7 d e).trans (outBlk_read (F := Ideal) c (Cert.Spec.G0 (arrX V c) (arrWK V c) (arrBK V c) (arrWV V c) (arrBV V c)) t d e).symm

/-- What each write-back writes is its block of the first pass's result. -/
theorem flushed0_eq (c : Dev nD) (t : Fin cfg0.N) (hf : (cfg0.win 5).flush t = true) :
    (dat0 V c).flushed 5 t = ((cfg0.win 5).blk t).view.read (Elt Ideal) (Cert.Spec.G0 (arrX V c) (arrWK V c) (arrBK V c) (arrWV V c) (arrBV V c)) := by
  have h7 : t.val % 8 = 7 := (flush0_5 t).mp hf
  show (cfg0.win 5).cut (grid0.coords t) ((dat0 V c).after 5 t) = _
  rw [after0_5, stateAt_last V c t h7]
  dsimp only
  exact lastOut_eq V c t h7

/-- The written-back blocks cover the output array, so it ends holding the first pass's result. -/
theorem final0 (c : Dev nD) : (dat0 V c).arrAt 5 cfg0.N = Cert.Spec.G0 (arrX V c) (arrWK V c) (arrBK V c) (arrWV V c) (arrBV V c) :=
  (dat0 V c).arrAt_eq_of_cover 5 (Cert.Spec.G0 (arrX V c) (arrWK V c) (arrBK V c) (arrWV V c) (arrBV V c)) (flushed0_eq V c) (out_cover c)

end Cert.KernelIdeal.Hand

end
-- ==== Proof.EValue.lean ====
/- The value region 1's body leaves in its output block, read index by index at the extended reals.

   At this interpretation a float is an extended real, a change of format is the identity, and a matrix
   product into a zero accumulator is the plain sum over the contracted axis.  So the block the body stores,
   one function of its four input blocks (out1_4), is at row p and column q

       Σ_d ( Σ_k x[0,p,k] · Wq[d,k]  +  bq[d] ) · KV[0,d,q] :

   the query row p projected by Wq with the bias added, then paired with column q of the KV block.  Only the
   layout operations (unit axes added and dropped, the bias row repeated over the rows) and the two
   contractions have to be read; nothing is rearranged, so no law of + or · is used. -/
import proofs.«141280_j21363167330926_2_alg».proof.Proof.EFrame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem
open scoped BigOperators

/-! ## Offsets that are all zero -/

theorem e_zeros3 : (![0, 0, 0] : Fin 3 → Nat) = fun _ => 0 :=
  funext fun a => by match a with | ⟨0, _⟩ => rfl | ⟨1, _⟩ => rfl | ⟨2, _⟩ => rfl
theorem e_zeros2 : (![0, 0] : Fin 2 → Nat) = fun _ => 0 :=
  funext fun a => by match a with | ⟨0, _⟩ => rfl | ⟨1, _⟩ => rfl
theorem e_zeros1 : (![0] : Fin 1 → Nat) = fun _ => 0 :=
  funext fun a => by match a with | ⟨0, _⟩ => rfl

/-! ## The projection x·Wqᵀ: both operands contracted along their second axis -/

theorem e_proj_lhs_row (p d : Fin 1024) (c : dot_S1024x1024_S1024x1024_S1024x1024_1_1_0_0_n_n.contr.Idx) :
    (dot_S1024x1024_S1024x1024_S1024x1024_1_1_0_0_n_n.lhsIdx (ix2 p d) c 0).val = p.val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem e_proj_lhs_contr (p d : Fin 1024) (c : dot_S1024x1024_S1024x1024_S1024x1024_1_1_0_0_n_n.contr.Idx) :
    (dot_S1024x1024_S1024x1024_S1024x1024_1_1_0_0_n_n.lhsIdx (ix2 p d) c 1).val = (c ⟨0, by decide⟩).val :=
  dot_S1024x1024_S1024x1024_S1024x1024_1_1_0_0_n_n.lhsIdx_val_of_single rfl (ix2 p d) c
theorem e_proj_rhs_row (p d : Fin 1024) (c : dot_S1024x1024_S1024x1024_S1024x1024_1_1_0_0_n_n.contr.Idx) :
    (dot_S1024x1024_S1024x1024_S1024x1024_1_1_0_0_n_n.rhsIdx (ix2 p d) c 0).val = d.val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem e_proj_rhs_contr (p d : Fin 1024) (c : dot_S1024x1024_S1024x1024_S1024x1024_1_1_0_0_n_n.contr.Idx) :
    (dot_S1024x1024_S1024x1024_S1024x1024_1_1_0_0_n_n.rhsIdx (ix2 p d) c 1).val = (c ⟨0, by decide⟩).val :=
  dot_S1024x1024_S1024x1024_S1024x1024_1_1_0_0_n_n.rhsIdx_val_of_single rfl (ix2 p d) c

/-- Entry (p, d) of the first product: row p of the left operand against row d of the right one. -/
theorem e_proj_apply (l r : FVec Ideal S1024x1024 .bf16) (p d : Fin 1024) :
    FloatOps.matmul dot_S1024x1024_S1024x1024_S1024x1024_1_1_0_0_n_n none l r (constant (F := Ideal) S1024x1024 .f32 0x00000000#32) (ix2 p d)
      = ∑ k : Fin 1024, l (ix2 p k) * r (ix2 d k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p d) ((contrEquiv1 dot_S1024x1024_S1024x1024_S1024x1024_1_1_0_0_n_n 1024 rfl rfl).symm k) = ix2 p k := funext fun a => Fin.ext (by
    match a with
    | ⟨0, _⟩ => exact e_proj_lhs_row _ _ _
    | ⟨1, _⟩ => exact (e_proj_lhs_contr _ _ _).trans hk)
  have er : dot_S1024x1024_S1024x1024_S1024x1024_1_1_0_0_n_n.rhsIdx (ix2 p d) ((contrEquiv1 dot_S1024x1024_S1024x1024_S1024x1024_1_1_0_0_n_n 1024 rfl rfl).symm k) = ix2 d k := funext fun a => Fin.ext (by
    match a with
    | ⟨0, _⟩ => exact e_proj_rhs_row _ _ _
    | ⟨1, _⟩ => exact (e_proj_rhs_contr _ _ _).trans hk)
  rw [el, er]

/-! ## The pairing Q·KV: the left operand's second axis against the right operand's first -/

theorem e_pair_lhs_row (p q : Fin 1024) (c : dot_S1024x1024_S1024x1024_S1024x1024_1_0_0_1_n_n.contr.Idx) :
    (dot_S1024x1024_S1024x1024_S1024x1024_1_0_0_1_n_n.lhsIdx (ix2 p q) c 0).val = p.val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem e_pair_lhs_contr (p q : Fin 1024) (c : dot_S1024x1024_S1024x1024_S1024x1024_1_0_0_1_n_n.contr.Idx) :
    (dot_S1024x1024_S1024x1024_S1024x1024_1_0_0_1_n_n.lhsIdx (ix2 p q) c 1).val = (c ⟨0, by decide⟩).val :=
  dot_S1024x1024_S1024x1024_S1024x1024_1_0_0_1_n_n.lhsIdx_val_of_single rfl (ix2 p q) c
theorem e_pair_rhs_contr (p q : Fin 1024) (c : dot_S1024x1024_S1024x1024_S1024x1024_1_0_0_1_n_n.contr.Idx) :
    (dot_S1024x1024_S1024x1024_S1024x1024_1_0_0_1_n_n.rhsIdx (ix2 p q) c 0).val = (c ⟨0, by decide⟩).val :=
  dot_S1024x1024_S1024x1024_S1024x1024_1_0_0_1_n_n.rhsIdx_val_of_single rfl (ix2 p q) c
theorem e_pair_rhs_col (p q : Fin 1024) (c : dot_S1024x1024_S1024x1024_S1024x1024_1_0_0_1_n_n.contr.Idx) :
    (dot_S1024x1024_S1024x1024_S1024x1024_1_0_0_1_n_n.rhsIdx (ix2 p q) c 1).val = q.val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Entry (p, q) of the second product: row p of the left operand against column q of the right one. -/
theorem e_pair_apply (l r : FVec Ideal S1024x1024 .bf16) (p q : Fin 1024) :
    FloatOps.matmul dot_S1024x1024_S1024x1024_S1024x1024_1_0_0_1_n_n none l r (constant (F := Ideal) S1024x1024 .f32 0x00000000#32) (ix2 p q)
      = ∑ d : Fin 1024, l (ix2 p d) * r (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact e_pair_lhs_row _ _ _
    | ⟨1, _⟩ => exact (e_pair_lhs_contr _ _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (e_pair_rhs_contr _ _ _).trans hk
    | ⟨1, _⟩ => exact e_pair_rhs_col _ _ _)
  rw [el, er]

/-! ## The stored term at an index -/

/-- The body's stored value at (0, p, q), from its four loaded blocks. -/
theorem e_payload_apply (v0 : Vec Ideal S1x1024x1024 .f32) (v3 : Vec Ideal S1024x1024 .bf16) (v5 : Vec Ideal S1024 .f32)
    (v6 : Vec Ideal S1x1024x1024 .bf16) (p q : Fin 1024) :
    k1_pay1 (F := Ideal) v0 v3 v5 v6 (ix3 0 p q)
      = ∑ d : Fin 1024, ((∑ k : Fin 1024, v0 (ix3 0 p k) * v3 (ix2 d k)) + v5 (ix1 d)) * v6 (ix3 0 d q) := by
  unfold k1_pay1
  -- the unit axis the store adds
  refine (shapeCast_ab_1ab_apply _ _ 0 p q).trans ?_
  -- the pairing with the KV block
  refine (e_pair_apply _ _ p q).trans ?_
  refine Finset.sum_congr rfl fun d _ => ?_
  refine congrArg₂ (· * ·) ?_ (shapeCast_1ab_ab_apply v6 _ d q)
  -- the format change is the identity; the sum is pointwise
  refine (truncf_apply (φ := .f32) (ψ := .bf16) _ bitsLt_bf16_f32 (ix2 p d)).trans ?_
  refine (addf_apply (φ := .f32) _ _ (ix2 p d)).trans ?_
  refine congrArg₂ (· + ·) ?_ ?_
  · -- the projection by Wq
    refine (e_proj_apply _ _ p d).trans ?_
    refine Finset.sum_congr rfl fun k _ => ?_
    refine congrArg₂ (· * ·) ?_ ?_
    · exact (truncf_apply (φ := .f32) (ψ := .bf16) _ bitsLt_bf16_f32 (ix2 p k)).trans (shapeCast_1ab_ab_apply v0 _ p k)
    · exact congrFun (shapeCast_self v3 _) (ix2 d k)
  · -- the bias row, repeated over the rows
    exact (broadcastTo_1b_ab_apply _ _ p d).trans (shapeCast_a_1a_apply v5 _ 0 d)

/-- The output block after the body at (0, p, q), from the four input blocks. -/
theorem out1_4_apply (x0 : Vec Ideal S1x1024x1024 .f32) (x1 : Vec Ideal S1024x1024 .bf16) (x2 : Vec Ideal S1024 .f32)
    (x3 : Vec Ideal S1x1024x1024 .bf16) (p q : Fin 1024) :
    out1_4 (F := Ideal) x0 x1 x2 x3 (ValueIdx.ix3 0 p q)
      = ∑ d : Fin 1024, ((∑ k : Fin 1024, x0 (ValueIdx.ix3 0 p k) * x1 (ValueIdx.ix2 d k)) + x2 (ValueIdx.ix1 d)) * x3 (ValueIdx.ix3 0 d q) := by
  unfold out1_4
  rw [View.canon_unit_zero e_zeros3]
  simp only [View.ld_unit_zero (S := S1x1024x1024) e_zeros3, View.ld_unit_zero (S := S1024x1024) e_zeros2, View.ld_unit_zero (S := S1024) e_zeros1]
  exact e_payload_apply x0 x1 x2 x3 p q

end Cert.KernelIdeal.Hand

end
-- ==== Proof.EFinal.lean ====
/- From region 1's blocks to its whole output array, at the extended reals.

   Region 1 runs over a grid of 4 × 4 points; point t = 4·b + s handles batch b and rows 1024·s … 1024·s + 1023.
   There the x window's block is those rows of batch b of x, the KV window's block is the matrix of batch b, the
   projection matrix and the bias are read whole, and the output window's block is the same rows of batch b of
   the result.  Read at an entry, the block the body leaves is therefore

       Σ_d ( Σ_k x[b, r, k] · Wq[d, k] + bq[d] ) · KV[b, d, e]        (r = 1024·s + p),

   which is entry (b, r, e) of the second-pass function G1 of the four arrays.  Every point writes its block
   back, and the sixteen blocks tile the [4, 4096, 1024] array: entry (b, r, e) lies in the block of point
   4·b + r / 1024.  So after the region the output array is G1 of the four arrays. -/
import proofs.«141280_j21363167330926_2_alg».proof.Proof.EValue
import proofs.«141280_j21363167330926_2_alg».proof.Proof.KernelSpec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Where each window's block sits at a point -/

/-- The windows' block indices over the grid: point t is batch t / 4 and row block t % 4; the x block and the
    output block follow both, the KV block the batch only, the projection matrix and the bias neither. -/
theorem e_index_at : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = t.val % 4 ∧ win1_4.index t (2 : Fin 3) = 0 :=
  (by decide +kernel : ∀ t : Fin grid1.N, _)

/-! ## The input blocks as entries of their arrays -/

/-- The x block at point t: entry y is x at batch t / 4, row 1024·(t % 4) + y₁, column y₂. -/
theorem e_iblk_x (c : Dev nD) (t : Fin cfg1.N) (y : S1x1024x1024.Idx) (i : S4x4096x1024.Idx)
    (h0 : (i 0).val = t.val / 4) (h1 : (i 1).val = 1024 * (t.val % 4) + (y 1).val) (h2 : (i 2).val = (y 2).val) :
    (iblk1 V c 0 t : Vec Ideal S1x1024x1024 .f32) y = (V c main_arg0 : S4x4096x1024.Idx → EReal) i := by
  obtain ⟨e0, e1, e2, -⟩ := e_index_at t
  unfold iblk1
  rw [View.read_apply]
  show V c main_arg0 _ = V c main_arg0 _
  congr 1
  funext a
  apply Fin.ext
  match a with
  | ⟨0, _⟩ => show win1_0.index t (0 : Fin 3) * 1 + 1 * (y 0).val = (i 0).val; have hy : (y 0).val < 1 := (y 0).isLt; omega
  | ⟨1, _⟩ => show win1_0.index t (1 : Fin 3) * 1024 + 1 * (y 1).val = (i 1).val; omega
  | ⟨2, _⟩ => show win1_0.index t (2 : Fin 3) * 1024 + 1 * (y 2).val = (i 2).val; omega

/-- The projection matrix's block at any point is the whole matrix. -/
theorem e_iblk_wq (c : Dev nD) (t : Fin cfg1.N) (y : S1024x1024.Idx) :
    (iblk1 V c 1 t : Vec Ideal S1024x1024 .bf16) y = (V c main_v0 : S1024x1024.Idx → EReal) y := by
  obtain ⟨-, -, -, e0, e1, -⟩ := e_index_at t
  unfold iblk1
  rw [View.read_apply]
  show V c main_v0 _ = V c main_v0 _
  congr 1
  funext a
  apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias's block at any point is the whole bias. -/
theorem e_iblk_bq (c : Dev nD) (t : Fin cfg1.N) (y : S1024.Idx) :
    (iblk1 V c 2 t : Vec Ideal S1024 .f32) y = (V c main_arg2 : S1024.Idx → EReal) y := by
  obtain ⟨-, -, -, -, -, e0, -⟩ := e_index_at t
  unfold iblk1
  rw [View.read_apply]
  show V c main_arg2 _ = V c main_arg2 _
  congr 1
  funext a
  apply Fin.ext
  match a with
  | ⟨0, _⟩ => show win1_2.index t (0 : Fin 1) * 1024 + 1 * (y 0).val = (y 0).val; omega

/-- The KV block at point t: entry y is the KV array at batch t / 4, row y₁, column y₂. -/
theorem e_iblk_kv (c : Dev nD) (t : Fin cfg1.N) (y : S1x1024x1024.Idx) (i : S4x1024x1024.Idx)
    (h0 : (i 0).val = t.val / 4) (h1 : (i 1).val = (y 1).val) (h2 : (i 2).val = (y 2).val) :
    (iblk1 V c 3 t : Vec Ideal S1x1024x1024 .bf16) y = (V c main_v3 : S4x1024x1024.Idx → EReal) i := by
  obtain ⟨-, -, -, -, -, -, e0, e1, e2, -⟩ := e_index_at t
  unfold iblk1
  rw [View.read_apply]
  show V c main_v3 _ = V c main_v3 _
  congr 1
  funext a
  apply Fin.ext
  match a with
  | ⟨0, _⟩ => show win1_3.index t (0 : Fin 3) * 1 + 1 * (y 0).val = (i 0).val; have hy : (y 0).val < 1 := (y 0).isLt; omega
  | ⟨1, _⟩ => show win1_3.index t (1 : Fin 3) * 1024 + 1 * (y 1).val = (i 1).val; omega
  | ⟨2, _⟩ => show win1_3.index t (2 : Fin 3) * 1024 + 1 * (y 2).val = (i 2).val; omega

/-! ## The block the body leaves, entry by entry, is the block of G1 -/

/-- At point t, entry (0, p, q) of the block the body leaves is entry (b, r, q) of G1, where b is the point's
    batch and r = 1024·(t % 4) + p the row of the array under row p of the block. -/
theorem e_block_entry (c : Dev nD) (t : Fin cfg1.N) (p q : Fin 1024) (b : Fin 4) (r : Fin 4096)
    (hb : b.val = t.val / 4) (hr : r.val = 1024 * (t.val % 4) + p.val) :
    out1_4 (F := Ideal) (iblk1 V c 0 t) (iblk1 V c 1 t) (iblk1 V c 2 t) (iblk1 V c 3 t) (ix3 0 p q)
      = Cert.Spec.G1 (V c main_arg0 : S4x4096x1024.Idx → EReal) (V c main_v0 : S1024x1024.Idx → EReal)
          (V c main_arg2 : S1024.Idx → EReal) (V c main_v3 : S4x1024x1024.Idx → EReal) (ix3 b r q) := by
  refine (out1_4_apply (iblk1 V c 0 t) (iblk1 V c 1 t) (iblk1 V c 2 t) (iblk1 V c 3 t) p q).trans ?_
  refine Eq.trans ?_ (Cert.Spec.G1_ix3 _ _ _ _ b r q).symm
  refine Finset.sum_congr rfl fun d _ => ?_
  unfold Cert.Spec.proj
  refine congrArg₂ (· * ·) (congrArg₂ (· + ·) (Finset.sum_congr rfl fun k _ => congrArg₂ (· * ·) ?_ ?_) ?_) ?_
  · exact e_iblk_x V c t (ix3 0 p k) (ix3 b r k) hb hr rfl
  · exact e_iblk_wq V c t (ix2 d k)
  · exact e_iblk_bq V c t (ix1 d)
  · exact e_iblk_kv V c t (ix3 0 d q) (ix3 b d q) hb rfl rfl

/-- The same at a block index y and an array index i related coordinate by coordinate. -/
theorem e_block_at (c : Dev nD) (t : Fin cfg1.N) (y : S1x1024x1024.Idx) (i : S4x4096x1024.Idx)
    (h0 : (i 0).val = t.val / 4) (h1 : (i 1).val = 1024 * (t.val % 4) + (y 1).val) (h2 : (i 2).val = (y 2).val) :
    out1_4 (F := Ideal) (iblk1 V c 0 t) (iblk1 V c 1 t) (iblk1 V c 2 t) (iblk1 V c 3 t) y
      = Cert.Spec.G1 (V c main_arg0 : S4x4096x1024.Idx → EReal) (V c main_v0 : S1024x1024.Idx → EReal)
          (V c main_arg2 : S1024.Idx → EReal) (V c main_v3 : S4x1024x1024.Idx → EReal) i := by
  obtain ⟨u, p, q, rfl⟩ : ∃ (u : Fin 1) (p q : Fin 1024), y = ix3 u p q := ⟨y 0, y 1, y 2, eq_ix3 y⟩
  obtain ⟨b, r, e, rfl⟩ : ∃ (b : Fin 4) (r : Fin 4096) (e : Fin 1024), i = ix3 b r e := ⟨i 0, i 1, i 2, eq_ix3 i⟩
  obtain rfl : u = 0 := Subsingleton.elim _ _
  obtain rfl : e = q := Fin.ext h2
  exact e_block_entry V c t p e b r h0 h1

/-! ## What a point writes back -/

/-- What point t writes back is block t of G1 of the four arrays as the region finds them. -/
theorem flushed1_eq (c : Dev nD) (t : Fin cfg1.N) :
    (dat1 V c).flushed 4 t = ((cfg1.win 4).blk t).view.read (Elt Ideal)
      (Cert.Spec.G1 (V c main_arg0 : S4x4096x1024.Idx → EReal) (V c main_v0 : S1024x1024.Idx → EReal)
        (V c main_arg2 : S1024.Idx → EReal) (V c main_v3 : S4x1024x1024.Idx → EReal)) := by
  show (cfg1.win 4).cut (grid1.coords t) ((dat1 V c).after 4 t) = _
  rw [after1_4]
  obtain ⟨-, -, -, -, -, -, -, -, -, e0, e1, e2⟩ := e_index_at t
  funext j
  show out1_4 (F := Ideal) (iblk1 V c 0 t) (iblk1 V c 1 t) (iblk1 V c 2 t) (iblk1 V c 3 t) j
    = Cert.Spec.G1 (V c main_arg0 : S4x4096x1024.Idx → EReal) (V c main_v0 : S1024x1024.Idx → EReal)
        (V c main_arg2 : S1024.Idx → EReal) (V c main_v3 : S4x1024x1024.Idx → EReal) (((cfg1.win 4).blk t).view.emb j)
  refine e_block_at V c t j (((cfg1.win 4).blk t).view.emb j) ?_ ?_ ?_
  · show win1_4.index t (0 : Fin 3) * 1 + 1 * (j 0).val = t.val / 4
    have hj : (j 0).val < 1 := (j 0).isLt
    omega
  · show win1_4.index t (1 : Fin 3) * 1024 + 1 * (j 1).val = 1024 * (t.val % 4) + (j 1).val
    omega
  · show win1_4.index t (2 : Fin 3) * 1024 + 1 * (j 2).val = (j 2).val
    omega

/-! ## The whole array -/

/-- The sixteen blocks tile the output array and each is its block of G1, so the array ends holding G1. -/
theorem final1 (c : Dev nD) :
    (dat1 V c).arrAt 4 cfg1.N = Cert.Spec.G1 (V c main_arg0 : S4x4096x1024.Idx → EReal) (V c main_v0 : S1024x1024.Idx → EReal)
      (V c main_arg2 : S1024.Idx → EReal) (V c main_v3 : S4x1024x1024.Idx → EReal) :=
  (dat1 V c).arrAt_eq_of_cover 4 _ (fun t _ => flushed1_eq V c t) fun i => by
    have hi0 : (i 0).val < 4 := (i 0).isLt
    have hi1 : (i 1).val < 4096 := (i 1).isLt
    have hi2 : (i 2).val < 1024 := (i 2).isLt
    obtain ⟨t, ht⟩ : ∃ t : Fin cfg1.N, t.val = 4 * (i 0).val + (i 1).val / 1024 :=
      ⟨⟨4 * (i 0).val + (i 1).val / 1024, by rw [show cfg1.N = 16 from N_1]; omega⟩, rfl⟩
    obtain ⟨-, -, -, -, -, -, -, -, -, e0, e1, e2⟩ := e_index_at t
    refine ⟨t, flush1_4 t, ?_⟩
    show i ∈ ((View.whole main_v4).slice (win1_4.rect t)).set
    rw [View.set_slice_whole, Rect.mem_set_unit]
    intro a
    match a with
    | ⟨0, _⟩ =>
      show win1_4.index t (0 : Fin 3) * 1 ≤ (i 0).val ∧ (i 0).val < win1_4.index t (0 : Fin 3) * 1 + 1
      omega
    | ⟨1, _⟩ =>
      show win1_4.index t (1 : Fin 3) * 1024 ≤ (i 1).val ∧ (i 1).val < win1_4.index t (1 : Fin 3) * 1024 + 1024
      omega
    | ⟨2, _⟩ =>
      show win1_4.index t (2 : Fin 3) * 1024 ≤ (i 2).val ∧ (i 2).val < win1_4.index t (2 : Fin 3) * 1024 + 1024
      omega

end Cert.KernelIdeal.Hand

end
-- ==== Proof.Assembly.lean ====
/-
  The kernel's result array, at the extended reals, as one function of the seven argument arrays.  The host stretch
  only changes the float format of the three weight matrices, which on the extended reals is the identity; region 0
  leaves in its output array the scaled K^T V accumulated tile by tile; region 1 leaves Q times that.  Regrouping the
  eight tiles of 512 rows into one sum over 4096 rows is associativity of addition on the extended reals.
-/
import proofs.«141280_j21363167330926_2_alg».proof.Proof.MainRun
import proofs.«141280_j21363167330926_2_alg».proof.Proof.KVFinal
import proofs.«141280_j21363167330926_2_alg».proof.Proof.EFinal
import proofs.«141280_j21363167330926_2_alg».proof.Proof.KernelSpec

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What the host stretch leaves -/

theorem W1_v0 (c : Dev nD) : (W1 m ρ c (Proc.devRef .tc main_v0) : S1024x1024.Idx → EReal) = (m ((c : Thread nD τ).loc main_arg1) : S1024x1024.Idx → EReal) := by
  dsimp only [W1, W0, hostOps0]; after_results; rfl
theorem W1_v1 (c : Dev nD) : (W1 m ρ c (Proc.devRef .tc main_v1) : S1024x1024.Idx → EReal) = (m ((c : Thread nD τ).loc main_arg3) : S1024x1024.Idx → EReal) := by
  dsimp only [W1, W0, hostOps0]; after_results; rfl
theorem W1_v2 (c : Dev nD) : (W1 m ρ c (Proc.devRef .tc main_v2) : S1024x1024.Idx → EReal) = (m ((c : Thread nD τ).loc main_arg5) : S1024x1024.Idx → EReal) := by
  dsimp only [W1, W0, hostOps0]; after_results; rfl
theorem W1_arg (c : Dev nD) (b : Ref sig .tc) (h : b ∉ ([main_v0, main_v1, main_v2] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    refine ⟨?_, ?_, ?_⟩ <;> exact StableHlo.devRef_ne_of_ne (fun e => h (by rw [e]; simp))))

/-! ## The arrays region 0 and region 1 are entered with -/

theorem V1_arg0 (c : Dev nD) : V1 m ρ c main_arg0 = (m ((c : Thread nD τ).loc main_arg0)) := W1_arg m ρ c main_arg0 (by decide)
theorem V1_arg4 (c : Dev nD) : V1 m ρ c main_arg4 = (m ((c : Thread nD τ).loc main_arg4)) := W1_arg m ρ c main_arg4 (by decide)
theorem V1_arg6 (c : Dev nD) : V1 m ρ c main_arg6 = (m ((c : Thread nD τ).loc main_arg6)) := W1_arg m ρ c main_arg6 (by decide)

theorem V2_arg0 (c : Dev nD) : V2 m ρ c main_arg0 = (m ((c : Thread nD τ).loc main_arg0)) :=
  ((W2_arr m ρ c 0).trans (((dat0 (V1 m ρ) c).arrAt_in 0 rfl _).trans (A_eq0 (V1 m ρ) c 0))).trans (V1_arg0 m ρ c)
theorem V2_arg2 (c : Dev nD) : V2 m ρ c main_arg2 = (m ((c : Thread nD τ).loc main_arg2)) :=
  (W2_of_ne m ρ c main_arg2 (by decide)).trans (W1_arg m ρ c main_arg2 (by decide))
theorem V2_v0 (c : Dev nD) : (V2 m ρ c main_v0 : S1024x1024.Idx → EReal) = ((m ((c : Thread nD τ).loc main_arg1)) : S1024x1024.Idx → EReal) :=
  (W2_of_ne m ρ c main_v0 (by decide)).trans (W1_v0 m ρ c)

/-- Region 0 leaves the scaled, tile-by-tile accumulated K^T V in its output array. -/
theorem V2_v3 (c : Dev nD) : (V2 m ρ c main_v3 : S4x1024x1024.Idx → EReal)
    = Cert.Spec.G0 (m ((c : Thread nD τ).loc main_arg0)) (m ((c : Thread nD τ).loc main_arg3)) (m ((c : Thread nD τ).loc main_arg4)) (m ((c : Thread nD τ).loc main_arg5)) (m ((c : Thread nD τ).loc main_arg6)) := by
  have e : V2 m ρ c main_v3 = (dat0 (V1 m ρ) c).arrAt 5 cfg0.N := W2_arr m ρ c 5
  rw [e, final0 (V1 m ρ) c]
  have h0 : arrX (V1 m ρ) c = (m ((c : Thread nD τ).loc main_arg0)) := V1_arg0 m ρ c
  have h1 : arrWK (V1 m ρ) c = ((m ((c : Thread nD τ).loc main_arg3)) : S1024x1024.Idx → EReal) := W1_v1 m ρ c
  have h2 : arrBK (V1 m ρ) c = (m ((c : Thread nD τ).loc main_arg4)) := V1_arg4 m ρ c
  have h3 : arrWV (V1 m ρ) c = ((m ((c : Thread nD τ).loc main_arg5)) : S1024x1024.Idx → EReal) := W1_v2 m ρ c
  have h4 : arrBV (V1 m ρ) c = (m ((c : Thread nD τ).loc main_arg6)) := V1_arg6 m ρ c
  rw [h0, h1, h2, h3, h4]

/-! ## The result -/

/-- The result array after the run is the specification's function of the seven argument arrays. -/
theorem result_eq (c : Dev nD) : (W3 m ρ c (Proc.devRef .tc main_v4) : S4x4096x1024.Idx → EReal)
    = Cert.Spec.E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W3 m ρ c (Proc.devRef .tc main_v4) = (dat1 (V2 m ρ) c).arrAt 4 cfg1.N := W3_arr m ρ c 4
  rw [e, final1 (V2 m ρ) c, V2_arg0, V2_arg2]
  rw [show (V2 m ρ c main_v0 : S1024x1024.Idx → EReal) = ((m ((c : Thread nD τ).loc main_arg1)) : S1024x1024.Idx → EReal) from V2_v0 m ρ c,
    show (V2 m ρ c main_v3 : S4x1024x1024.Idx → EReal) = _ from V2_v3 m ρ c]
  exact Cert.Spec.G1_G0 _ _ _ _ _ _ _

/-- THE VALUE RUN: every weakly fair execution terminates with the result array at the specification's function of
    the arguments and the arguments unchanged. -/
theorem run_value : θ_run defs (onTc (τ := τ) (main (F := Ideal))) ⟨m, fun _ => 0, ρ⟩ (fun r => ∀ c : Dev nD,
      r.2.mem ((c.tc : Thread nD τ).loc main_v4) = Cert.Spec.E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.lean ====
/-
  The certificate of the two-pass linear-attention kernel against its einsum reference.

  Both programs compute E[b,s,e] = Σ_d Q[b,s,d] · KV[b,d,e] with Q, K, V = x·Wᵀ + bias and
  KV[b,d,e] = (Σ_s K[b,s,d] · V[b,s,e]) · (1/32).  The kernel builds KV in a first pass over S-tiles of 512 rows,
  accumulating into a scratch buffer that it zero-fills at a batch's first tile and scales and stores at its last, and
  multiplies Q by it in a second pass over S-tiles of 1024 rows.  On the extended reals the changes of float format are
  the identity, each matrix product into a zero accumulator is a plain sum, the scale literal 0x3D000000 is 1/32 =
  1/√1024, and the only law joining the two sides is the regrouping of a sum over 4096 rows into eight tiles of 512:
  associativity of addition, which needs no finiteness.

  The three frames: each program terminates without a fault and leaves its arguments as launched.  For the kernel (at
  the word level and idealized alike) this is the run of @main as a host stretch and two kernel regions; the first
  region's invariant carries the accumulator from grid point to grid point.
-/
import proofs.«141280_j21363167330926_2_alg».proof.Defs
import proofs.«141280_j21363167330926_2_alg».proof.Proof.Gen.Kernel
import proofs.«141280_j21363167330926_2_alg».proof.Proof.Gen.KernelIdeal
import proofs.«141280_j21363167330926_2_alg».proof.Proof.Gen.ReferenceIdeal
import proofs.«141280_j21363167330926_2_alg».proof.Proof.Gen.Pre_finite_inputs
import proofs.«141280_j21363167330926_2_alg».proof.Proof.Gen.ReferenceIdeal.Run
import proofs.«141280_j21363167330926_2_alg».proof.Proof.Gen.ReferenceIdeal.Read
import proofs.«141280_j21363167330926_2_alg».proof.Proof.Bits.MainRun
import proofs.«141280_j21363167330926_2_alg».proof.Proof.MainRun
import proofs.«141280_j21363167330926_2_alg».proof.Proof.Assembly
import proofs.«141280_j21363167330926_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- Both programs end with the result array at the specification's function `Cert.Spec.E` of the seven argument arrays:
    the kernel by its value run, the reference by its run read one operation at a time. -/
theorem algebraic : Cert.algebraic_KernelIdeal_ReferenceIdeal := by
  intro m ρ m' ρ' _ hagree
  refine ⟨fun c => Cert.Spec.E (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Spec.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
